-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x128 : Shape := ⟨2, ![1024, 128]⟩
abbrev S128 : Shape := ⟨1, ![128]⟩
abbrev S512x128 : Shape := ⟨2, ![512, 128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  main_v18

def fn {F : FTy → Type} [FloatOps F] (main_arg0 : FVec F S65536x1024 .f32) (main_arg1 : FVec F S1024x128 .f32) (main_arg2 : FVec F S128 .f32) (main_arg3 : FVec F S512x128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_v13 main_v16
-- ==== Kernel.lean ====
abbrev S65536x1024 : Shape := ⟨2, ![65536, 1024]⟩
abbrev S1024x128 : Shape := ⟨2, ![1024, 128]⟩
abbrev S128 : Shape := ⟨1, ![128]⟩
abbrev S512x128 : Shape := ⟨2, ![512, 128]⟩
abbrev S1x128 : Shape := ⟨2, ![1, 128]⟩
abbrev S65536x128 : Shape := ⟨2, ![65536, 128]⟩
abbrev S65536x512 : Shape := ⟨2, ![65536, 512]⟩
abbrev S32x1x512 : Shape := ⟨3, ![32, 1, 512]⟩
abbrev S2048x1024 : Shape := ⟨2, ![2048, 1024]⟩
abbrev S2048x128 : Shape := ⟨2, ![2048, 128]⟩
abbrev S2048x512 : Shape := ⟨2, ![2048, 512]⟩
abbrev S1x1x512 : Shape := ⟨3, ![1, 1, 512]⟩
abbrev S1x512 : Shape := ⟨2, ![1, 512]⟩
abbrev S2048 : Shape := ⟨1, ![2048]⟩
abbrev S2048x1 : Shape := ⟨2, ![2048, 1]⟩
abbrev S512 : Shape := ⟨1, ![512]⟩
abbrev S4096x128 : Shape := ⟨2, ![4096, 128]⟩
abbrev S4096x512 : Shape := ⟨2, ![4096, 512]⟩
abbrev S4096 : Shape := ⟨1, ![4096]⟩
abbrev S4096x1 : Shape := ⟨2, ![4096, 1]⟩
abbrev S32x512 : Shape := ⟨2, ![32, 512]⟩

abbrev nBuf : Space → Nat
  | .hbm => 9
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024x128, .f32⟩
  | .hbm, ⟨2, _⟩ => ⟨S128, .f32⟩
  | .hbm, ⟨3, _⟩ => ⟨S512x128, .f32⟩
  | .hbm, ⟨4, _⟩ => ⟨S1x128, .f32⟩
  | .hbm, ⟨5, _⟩ => ⟨S65536x128, .f32⟩
  | .hbm, ⟨6, _⟩ => ⟨S65536x512, .f32⟩
  | .hbm, ⟨7, _⟩ => ⟨S32x1x512, .f32⟩
  | .hbm, ⟨8, _⟩ => ⟨S65536x512, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1x128, .f32⟩
  | .local _ .vmem, ⟨4, _⟩ => ⟨S512x128, .f32⟩
  | .local _ .vmem, ⟨5, _⟩ => ⟨S2048x128, .f32⟩
  | .local _ .vmem, ⟨6, _⟩ => ⟨S2048x128, .f32⟩
  | .local _ .vmem, ⟨7, _⟩ => ⟨S2048x512, .f32⟩
  | .local _ .vmem, ⟨8, _⟩ => ⟨S2048x512, .f32⟩
  | .local _ .vmem, ⟨9, _⟩ => ⟨S1x1x512, .f32⟩
  | .local _ .vmem, ⟨10, _⟩ => ⟨S1x1x512, .f32⟩
  | .local _ .vmem, ⟨11, _⟩ => ⟨S4096x128, .f32⟩
  | .local _ .vmem, ⟨12, _⟩ => ⟨S4096x128, .f32⟩
  | .local _ .vmem, ⟨13, _⟩ => ⟨S512x128, .f32⟩
  | .local _ .vmem, ⟨14, _⟩ => ⟨S32x1x512, .f32⟩
  | .local _ .vmem, ⟨15, _⟩ => ⟨S4096x512, .f32⟩
  | .local _ .vmem, ⟨16, _⟩ => ⟨S4096x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  reduces_S2048x128_S2048 : S2048x128.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  broadcasts_S4096x1_S4096x512 : S4096x1.Broadcasts S4096x512
  broadcasts_S1x512_S4096x512 : S1x512.Broadcasts S4096x512
  inb_S32x1x512_S32x1x512_0_0_0 : ∀ a, (![0, 0, 0] : Fin 3 → Nat) a + S32x1x512.size a ≤ S32x1x512.size a
  h_S32x1x512 : 0 < S32x1x512.numel
  shapeCasts_S32x1x512_S32x512 : S32x1x512.ShapeCasts S32x512
  reduces_S32x512_S512 : S32x512.Reduces [0] S512
  shapeCasts_S512_S1x512 : S512.ShapeCasts S1x512
  reduces_S4096x512_S4096 : S4096x512.Reduces [1] S4096
  inb_S4096x512_S4096x512_0_0 : ∀ a, (![0, 0] : Fin 2 → Nat) a + S4096x512.size a ≤ S4096x512.size a
  h_S4096x512 : 0 < S4096x512.numel
  dot_S2048x1024_S1024x128_S2048x128_1_0_0_1_n_n_wf : DotDims.WF S2048x1024 S1024x128 S2048x128 [1] [0] [0] [1] [] []
  dot_S1x128_S512x128_S1x512_1_1_0_0_n_n_wf : DotDims.WF S1x128 S512x128 S1x512 [1] [1] [0] [0] [] []
  dot_S2048x128_S512x128_S2048x512_1_1_0_0_n_n_wf : DotDims.WF S2048x128 S512x128 S2048x512 [1] [1] [0] [0] [] []
  dot_S4096x128_S512x128_S4096x512_1_1_0_0_n_n_wf : DotDims.WF S4096x128 S512x128 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S65536x512.size a
  hwx0_5 : ∀ i : grid0.Coords, EltTy.bits .f32 = 32 ∨ (Rect.block (s := S65536x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1x512.size a ≤ S32x1x512.size a
  hwx1_2 : ∀ i : grid1.Coords, EltTy.bits .f32 = 32 ∨ (Rect.block (s := S32x1x512) S32x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S65536x512.size a
  hwx1_3 : ∀ i : grid1.Coords, EltTy.bits .f32 = 32 ∨ (Rect.block (s := S65536x512) S4096x512.size (cc1_transform_3 i) (hinb1_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1x128_S512x128_S1x512_1_1_0_0_n_n : DotDims S1x128 S512x128 S1x512 where
  lhsContracting := [1]
  rhsContracting := [1]
  lhsNonContracting := [0]
  rhsNonContracting := [0]
  lhsBatch := []
  rhsBatch := []
  wf := dot_S1x128_S512x128_S1x512_1_1_0_0_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S4096x128_S512x128_S4096x512_1_1_0_0_n_n : DotDims S4096x128 S512x128 S4096x512 where
  lhsContracting := [1]
  rhsContracting := [1]
  lhsNonContracting := [0]
  rhsNonContracting := [0]
  lhsBatch := []
  rhsBatch := []
  wf := dot_S4096x128_S512x128_S4096x512_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S32x1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S1024x128 : Shape := ⟨2, ![1024, 128]⟩
abbrev S128 : Shape := ⟨1, ![128]⟩
abbrev S512x128 : Shape := ⟨2, ![512, 128]⟩
abbrev S65536x128 : Shape := ⟨2, ![65536, 128]⟩
abbrev S1x128 : Shape := ⟨2, ![1, 128]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S128x512 : Shape := ⟨2, ![128, 512]⟩

abbrev nBuf : Space → Nat
  | .hbm => 50
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x128, .f32⟩
  | .hbm, ⟨2, _⟩ => ⟨S128, .f32⟩
  | .hbm, ⟨3, _⟩ => ⟨S512x128, .f32⟩
  | .hbm, ⟨4, _⟩ => ⟨S65536x128, .f32⟩
  | .hbm, ⟨5, _⟩ => ⟨S1x128, .f32⟩
  | .hbm, ⟨6, _⟩ => ⟨S65536x128, .f32⟩
  | .hbm, ⟨7, _⟩ => ⟨S65536x128, .f32⟩
  | .hbm, ⟨8, _⟩ => ⟨S65536x128, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S512x128, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S128x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S512, .f32⟩
  | .hbm, ⟨41, _⟩ => ⟨S65536x512, .f32⟩
  | .hbm, ⟨42, _⟩ => ⟨S1x512, .f32⟩
  | .hbm, ⟨43, _⟩ => ⟨S65536x512, .f32⟩
  | .hbm, ⟨44, _⟩ => ⟨S65536x512, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S65536x512, .f32⟩
  | .hbm, ⟨49, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  bcast_S65536_S65536x1_0 : S65536.BroadcastsInDim S65536x1 (![0] : Fin 1 → Fin S65536x1.rank)
  reducesTo_S512x128_S512_d1 : S512x128.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  transposes_S512x128_S128x512_1_0 : S512x128.Transposes [1, 0] S128x512
  bcast_S_S65536x512 : S_.BroadcastsInDim S65536x512 (![] : Fin 0 → Fin S65536x512.rank)
  reducesTo_S65536x512_S65536_d1 : S65536x512.ReducesTo [1] S65536
  reducesTo_S65536x512_S512_d0 : S65536x512.ReducesTo [0] S512
  dot_S65536x1024_S1024x128_S65536x128_1_0_0_1_n_n_wf : DotDims.WF S65536x1024 S1024x128 S65536x128 [1] [0] [0] [1] [] []
  dot_S65536x128_S128x512_S65536x512_1_0_0_1_n_n_wf : DotDims.WF S65536x128 S128x512 S65536x512 [1] [0] [0] [1] [] []

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf

class Facts : Prop extends Facts₀ where

variable [Facts]
-- ==== Proof.KernelRun.lean ====
/-
  The idealized kernel's run with its three result arrays named. The program is a reshape of the bias followed by
  two kernel regions; the run of these segments ends with every unscoped buffer at the contents the last region
  leaves, so each result array can be read there: the latent array and the row-normalised weights are what the first
  region's write-backs leave (the second region only reads the latent array), and the target distribution is what the
  second region's write-backs leave.
-/
import proofs.«153195_g7000796692862_feedfinal_2_13_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with each result array at the contents
    the last region leaves in its buffer and the argument arrays as launched. -/
theorem run_named : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v1_0 (by decide)),
       h c _ (mem_uc main_v1_1 (by decide)),
       h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-! ## What the last boundary holds at each result -/

/-- The latent array: written back by the first region, only read by the second. -/
theorem W3_latent (c : Dev nD) :
    W3 m ρ c (Proc.devRef .tc main_v1_0) = (dat0 (V1 m ρ) c).arrAt 4 cfg0.N :=
  ((W3_arr m ρ c 0).trans (((dat1 (V2 m ρ) c).arrAt_in 0 rfl _).trans (A_eq1 (V2 m ρ) c 0))).trans (W2_arr m ρ c 4)

/-- The row-normalised weights: written back by the first region, untouched by the second. -/
theorem W3_weights (c : Dev nD) :
    W3 m ρ c (Proc.devRef .tc main_v1_1) = (dat0 (V1 m ρ) c).arrAt 5 cfg0.N :=
  (W3_of_ne m ρ c main_v1_1 (by decide)).trans (W2_arr m ρ c 5)

/-- The target distribution: written back by the second region. -/
theorem W3_target (c : Dev nD) :
    W3 m ρ c (Proc.devRef .tc main_v2) = (dat1 (V2 m ρ) c).arrAt 3 cfg1.N :=
  W3_arr m ρ c 3

/-! ## What each region finds in its input arrays -/

theorem V1_arg0 (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V1_arg1 (c : Dev nD) : V1 m ρ c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V1_arg3 (c : Dev nD) : V1 m ρ c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-- The bias as the first region finds it: the argument vector viewed as one row. -/
theorem V1_bias (c : Dev nD) :
    (V1 m ρ c main_v0 : S1x128.Idx → Elt F .f32)
      = shapeCast S1x128 (m ((c : Thread nD τ).loc main_arg2)) shapeCasts_S128_S1x128 := by
  show StableHlo.after hostOps0 (W0 m ρ c) (Proc.devRef .tc main_v0) = _
  after_results
  rfl

/-- The second region finds the latent array and the partial column sums as the first region left them, and the
    centroids as launched. -/
theorem V2_latent (c : Dev nD) : V2 m ρ c main_v1_0 = (dat0 (V1 m ρ) c).arrAt 4 cfg0.N := W2_arr m ρ c 4
theorem V2_partials (c : Dev nD) : V2 m ρ c main_v1_2 = (dat0 (V1 m ρ) c).arrAt 6 cfg0.N := W2_arr m ρ c 6
theorem V2_arg3 (c : Dev nD) : V2 m ρ c main_arg3 = m ((c : Thread nD τ).loc main_arg3) :=
  ((W2_arr m ρ c 3).trans (((dat0 (V1 m ρ) c).arrAt_in 3 rfl _).trans (A_eq0 (V1 m ρ) c 3))).trans (V1_arg3 m ρ c)

end Cert.KernelIdeal.KRun

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«153195_g7000796692862_feedfinal_2_13_alg».proof.Proof.LibPlainDot
import proofs.«153195_g7000796692862_feedfinal_2_13_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.DtcReal.lean ====
/-
  The real-number core of the equivalence. A latent row `l` and centroids `c` give the squared distances
  `‖l‖² + ‖c k‖² − 2 l·c k` (a sum of squares, so nonnegative), the Student-t weights `1 / (1 + dist)` (positive),
  their row normalisation `q`, and two forms of the target distribution: the one that squares the normalised `q`
  and the one that squares the unnormalised weights. The row normaliser is a positive real, so it cancels between
  the numerator and the row sum and the two forms are the same number.
-/
import Mathlib.Algebra.BigOperators.Field
import Mathlib.Algebra.Order.BigOperators.Ring.Finset
import Mathlib.Tactic

noncomputable section

namespace Cert.Proof.Dtc

variable {ι κ ν : Type*} [Fintype ι] [Fintype κ] [Fintype ν]

/-- The squared distance from the row `l` to centroid `k`, by expansion. -/
def distR (l : ι → ℝ) (c : κ → ι → ℝ) (k : κ) : ℝ :=
  ((∑ d, l d * l d) + (∑ d, c k d * c k d)) - 2 * (∑ d, l d * c k d)

/-- The expansion is the sum of the squared coordinate differences. -/
theorem distR_eq_sum_sq (l : ι → ℝ) (c : κ → ι → ℝ) (k : κ) : distR l c k = ∑ d, (l d - c k d) ^ 2 := by
  unfold distR
  rw [Finset.mul_sum, ← Finset.sum_add_distrib, ← Finset.sum_sub_distrib]
  exact Finset.sum_congr rfl fun d _ => by ring

theorem distR_nonneg (l : ι → ℝ) (c : κ → ι → ℝ) (k : κ) : 0 ≤ distR l c k := by
  rw [distR_eq_sum_sq]; exact Finset.sum_nonneg fun d _ => sq_nonneg _

theorem one_add_distR_pos (l : ι → ℝ) (c : κ → ι → ℝ) (k : κ) : 0 < 1 + distR l c k := by
  have := distR_nonneg l c k; linarith

/-- The Student-t weight with one degree of freedom. -/
def numR (l : ι → ℝ) (c : κ → ι → ℝ) (k : κ) : ℝ := 1 / (1 + distR l c k)

theorem numR_pos (l : ι → ℝ) (c : κ → ι → ℝ) (k : κ) : 0 < numR l c k :=
  div_pos one_pos (one_add_distR_pos l c k)

theorem sum_numR_pos [Nonempty κ] (l : ι → ℝ) (c : κ → ι → ℝ) : 0 < ∑ k, numR l c k :=
  Finset.sum_pos (fun k _ => numR_pos l c k) Finset.univ_nonempty

/-- The weights normalised along the row. -/
def qR (l : ι → ℝ) (c : κ → ι → ℝ) (k : κ) : ℝ := numR l c k / ∑ k', numR l c k'

theorem qR_pos [Nonempty κ] (l : ι → ℝ) (c : κ → ι → ℝ) (k : κ) : 0 < qR l c k :=
  div_pos (numR_pos l c k) (sum_numR_pos l c)

/-- The column sums of `q` over all rows. -/
def fqR (L : ν → ι → ℝ) (c : κ → ι → ℝ) (k : κ) : ℝ := ∑ n, qR (L n) c k

theorem fqR_pos [Nonempty κ] [Nonempty ν] (L : ν → ι → ℝ) (c : κ → ι → ℝ) (k : κ) : 0 < fqR L c k :=
  Finset.sum_pos (fun n _ => qR_pos (L n) c k) Finset.univ_nonempty

/-- The target distribution from the unnormalised weights. -/
def pK (l : ι → ℝ) (c : κ → ι → ℝ) (fq : κ → ℝ) (k : κ) : ℝ :=
  (numR l c k * numR l c k / fq k) / ∑ k', (numR l c k' * numR l c k' / fq k')

/-- The target distribution from the normalised `q`. -/
def pR (l : ι → ℝ) (c : κ → ι → ℝ) (fq : κ → ℝ) (k : κ) : ℝ :=
  (qR l c k * qR l c k / fq k) / ∑ k', (qR l c k' * qR l c k' / fq k')

theorem sum_sq_div_pos [Nonempty κ] (l : ι → ℝ) (c : κ → ι → ℝ) (fq : κ → ℝ) (hfq : ∀ k, 0 < fq k) :
    0 < ∑ k', (numR l c k' * numR l c k' / fq k') :=
  Finset.sum_pos (fun k _ => div_pos (mul_pos (numR_pos l c k) (numR_pos l c k)) (hfq k)) Finset.univ_nonempty

theorem sum_qsq_div_pos [Nonempty κ] (l : ι → ℝ) (c : κ → ι → ℝ) (fq : κ → ℝ) (hfq : ∀ k, 0 < fq k) :
    0 < ∑ k', (qR l c k' * qR l c k' / fq k') :=
  Finset.sum_pos (fun k _ => div_pos (mul_pos (qR_pos l c k) (qR_pos l c k)) (hfq k)) Finset.univ_nonempty

/-- The row normaliser `s` enters the `q` form as `1/s²` in the numerator and in every term of the row sum, and
    cancels. -/
theorem pK_eq_pR [Nonempty κ] (l : ι → ℝ) (c : κ → ι → ℝ) (fq : κ → ℝ) (k : κ) :
    pK l c fq k = pR l c fq k := by
  unfold pK pR
  have hs : 0 < ∑ k', numR l c k' := sum_numR_pos l c
  have e : ∀ j, qR l c j * qR l c j / fq j
      = (numR l c j * numR l c j / fq j) / ((∑ k', numR l c k') * (∑ k', numR l c k')) := by
    intro j; unfold qR; rw [div_mul_div_comm, div_right_comm]
  rw [Finset.sum_congr rfl fun j _ => e j, e k, ← Finset.sum_div,
    div_div_div_cancel_right₀ (ne_of_gt (mul_pos hs hs))]

end Cert.Proof.Dtc

end
-- ==== Proof.DtcLift.lean ====
/-
  The two programs' row formulas on the extended reals, as each computes them, and their values at real inputs.
  The kernel forms the squared distance with a ones-row product for the centroid norms and divides `1` by
  `1 + dist`; the reference adds its sums to a zero initial value, divides the distance by `1` and raises
  `1 + dist` to the power `-1`. At real rows and real centroids every intermediate quantity is a real, the
  base `1 + dist` is at least `1`, and each form is the coercion of the real formula: quotients by nonzero reals
  are real quotients, and a positive real to the power `-1` is its reciprocal.
-/
import Idealize.ShloMosaic.PureOps.Ideal
import Idealize.ShloMosaic.PureOps.Ideal.Laws
import proofs.«153195_g7000796692862_feedfinal_2_13_alg».proof.Proof.DtcReal

noncomputable section

namespace Cert.Proof.Dtc

open Idealize.ShloMosaic

variable {ι κ ν : Type*} [Fintype ι] [Fintype κ] [Fintype ν]

/-! ## The float words the programs spell -/

theorem one_word : Ideal.ofBits .f32 0x3F800000#32 = ((1 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem neg_one_word : Ideal.ofBits .f32 0xBF800000#32 = ((-1 : ℝ) : EReal) := by
  simp [Ideal.ofBits, Ideal.ieee, -EReal.coe_mul]; norm_num

theorem zero_word : Ideal.ofBits .f32 0x00000000#32 = ((0 : ℝ) : EReal) := by
  rw [Ideal.ofBits_zero_f32]; rfl

/-! ## Coercions -/

/-- The coercion of a finite real sum is the sum of the coercions. -/
theorem coe_sum {α : Type*} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real is the real quotient. -/
theorem div_real (a b : ℝ) (hb : b ≠ 0) : Ideal.div (a : EReal) (b : EReal) = ((a / b : ℝ) : EReal) := by
  rw [Ideal.div_coe hb, ← EReal.coe_mul, mul_one_div]

/-- A real raised to the power `-1` is its reciprocal. -/
theorem pow_neg_one_real (a : ℝ) : Ideal.pow (a : EReal) ((-1 : ℝ) : EReal) = ((1 / a : ℝ) : EReal) := by
  rw [Ideal.pow_coe_coe]
  congr 1
  rw [show Real.rpow a (-1) = a ^ (-1 : ℝ) from rfl, Real.rpow_neg_one, one_div]

/-! ## The kernel's forms -/

/-- The squared distance as the kernel body forms it: the centroid norm by a product with a row of ones. -/
def distKE (l : ι → EReal) (c : κ → ι → EReal) (k : κ) : EReal :=
  ((∑ d, l d * l d) + (∑ d, Ideal.ofBits .f32 0x3F800000#32 * (c k d * c k d)))
    - Ideal.ofBits .f32 0x40000000#32 * (∑ d, l d * c k d)

def numKE (l : ι → EReal) (c : κ → ι → EReal) (k : κ) : EReal :=
  Ideal.div (Ideal.ofBits .f32 0x3F800000#32) (Ideal.ofBits .f32 0x3F800000#32 + distKE l c k)

def qKE (l : ι → EReal) (c : κ → ι → EReal) (k : κ) : EReal :=
  Ideal.div (numKE l c k) (∑ k', numKE l c k')

def pKE (l : ι → EReal) (c : κ → ι → EReal) (fq : κ → EReal) (k : κ) : EReal :=
  Ideal.div (Ideal.div (numKE l c k * numKE l c k) (fq k))
    (∑ k', Ideal.div (numKE l c k' * numKE l c k') (fq k'))

theorem distKE_coe (lr : ι → ℝ) (cr : κ → ι → ℝ) (k : κ) :
    distKE (fun d => (lr d : EReal)) (fun k d => (cr k d : EReal)) k = (distR lr cr k : EReal) := by
  unfold distKE distR
  rw [one_word, two_word]
  simp only [← EReal.coe_mul, ← coe_sum, ← EReal.coe_add, ← EReal.coe_sub, one_mul]

theorem numKE_coe (lr : ι → ℝ) (cr : κ → ι → ℝ) (k : κ) :
    numKE (fun d => (lr d : EReal)) (fun k d => (cr k d : EReal)) k = (numR lr cr k : EReal) := by
  unfold numKE numR
  rw [distKE_coe, one_word, ← EReal.coe_add, div_real _ _ (ne_of_gt (one_add_distR_pos lr cr k))]

theorem qKE_coe [Nonempty κ] (lr : ι → ℝ) (cr : κ → ι → ℝ) (k : κ) :
    qKE (fun d => (lr d : EReal)) (fun k d => (cr k d : EReal)) k = (qR lr cr k : EReal) := by
  unfold qKE qR
  simp only [numKE_coe, ← coe_sum]
  rw [div_real _ _ (ne_of_gt (sum_numR_pos lr cr))]

theorem pKE_coe [Nonempty κ] (lr : ι → ℝ) (cr : κ → ι → ℝ) (fq : κ → ℝ) (hfq : ∀ k, 0 < fq k) (k : κ) :
    pKE (fun d => (lr d : EReal)) (fun k d => (cr k d : EReal)) (fun k => (fq k : EReal)) k = (pK lr cr fq k : EReal) := by
  unfold pKE pK
  have e : ∀ j, Ideal.div ((numR lr cr j : EReal) * (numR lr cr j : EReal)) (fq j : EReal)
      = ((numR lr cr j * numR lr cr j / fq j : ℝ) : EReal) := fun j => by
    rw [← EReal.coe_mul, div_real _ _ (ne_of_gt (hfq j))]
  simp only [numKE_coe, e, ← coe_sum]
  rw [div_real _ _ (ne_of_gt (sum_sq_div_pos lr cr fq hfq))]

/-! ## The reference's forms -/

def distRE (l : ι → EReal) (c : κ → ι → EReal) (k : κ) : EReal :=
  ((Ideal.ofBits .f32 0x00000000#32 + ∑ d, l d * l d) + (Ideal.ofBits .f32 0x00000000#32 + ∑ d, c k d * c k d))
    - Ideal.ofBits .f32 0x40000000#32 * (∑ d, l d * c k d)

def numRE (l : ι → EReal) (c : κ → ι → EReal) (k : κ) : EReal :=
  Ideal.pow (Ideal.ofBits .f32 0x3F800000#32 + Ideal.div (distRE l c k) (Ideal.ofBits .f32 0x3F800000#32))
    (Ideal.ofBits .f32 0xBF800000#32)

def qRE (num : κ → EReal) (k : κ) : EReal :=
  Ideal.div (num k) (Ideal.ofBits .f32 0x00000000#32 + ∑ k', num k')

def pRE (q : κ → EReal) (fq : κ → EReal) (k : κ) : EReal :=
  Ideal.div (Ideal.div (q k * q k) (fq k))
    (Ideal.ofBits .f32 0x00000000#32 + ∑ k', Ideal.div (q k' * q k') (fq k'))

theorem distRE_coe (lr : ι → ℝ) (cr : κ → ι → ℝ) (k : κ) :
    distRE (fun d => (lr d : EReal)) (fun k d => (cr k d : EReal)) k = (distR lr cr k : EReal) := by
  unfold distRE distR
  rw [zero_word, two_word]
  simp only [← EReal.coe_mul, ← coe_sum, ← EReal.coe_add, ← EReal.coe_sub, zero_add]

theorem numRE_coe (lr : ι → ℝ) (cr : κ → ι → ℝ) (k : κ) :
    numRE (fun d => (lr d : EReal)) (fun k d => (cr k d : EReal)) k = (numR lr cr k : EReal) := by
  unfold numRE numR
  rw [distRE_coe, one_word, neg_one_word, div_real _ _ one_ne_zero, ← EReal.coe_add, pow_neg_one_real, div_one]

theorem qRE_coe [Nonempty κ] (lr : ι → ℝ) (cr : κ → ι → ℝ) (k : κ) :
    qRE (fun k => (numR lr cr k : EReal)) k = (qR lr cr k : EReal) := by
  unfold qRE qR
  rw [zero_word, ← coe_sum, ← EReal.coe_add, zero_add, div_real _ _ (ne_of_gt (sum_numR_pos lr cr))]

theorem pRE_coe [Nonempty κ] (lr : ι → ℝ) (cr : κ → ι → ℝ) (fq : κ → ℝ) (hfq : ∀ k, 0 < fq k) (k : κ) :
    pRE (fun k => (qR lr cr k : EReal)) (fun k => (fq k : EReal)) k = (pR lr cr fq k : EReal) := by
  unfold pRE pR
  have e : ∀ j, Ideal.div ((qR lr cr j : EReal) * (qR lr cr j : EReal)) (fq j : EReal)
      = ((qR lr cr j * qR lr cr j / fq j : ℝ) : EReal) := fun j => by
    rw [← EReal.coe_mul, div_real _ _ (ne_of_gt (hfq j))]
  simp only [e]
  rw [zero_word, ← coe_sum, ← EReal.coe_add, zero_add, div_real _ _ (ne_of_gt (sum_qsq_div_pos lr cr fq hfq))]

end Cert.Proof.Dtc

end
-- ==== Proof.KernelPay.lean ====
/-
  The two kernel bodies' stored values read at an index, at the ideal instance. The first body stores the latent block
  (a product into a zero accumulator plus the bias row), the block of row-normalised Student-t weights, and that
  block's column sums; the second stores the block of the target distribution. Each is the row formula of the
  extended-real layer applied to the row of the block, so the value at an entry depends only on that entry's latent row,
  the centroids and (for the target) the column sums.
-/
import proofs.«153195_g7000796692862_feedfinal_2_13_alg».proof.Proof.Gen.KernelIdeal.Skeleton
import proofs.«153195_g7000796692862_feedfinal_2_13_alg».proof.Proof.LibZeroAccDots
import proofs.«153195_g7000796692862_feedfinal_2_13_alg».proof.Proof.LibIx2
import proofs.«153195_g7000796692862_feedfinal_2_13_alg».proof.Proof.LibColumnSums
import proofs.«153195_g7000796692862_feedfinal_2_13_alg».proof.Proof.DtcLift
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx
open Cert.KernelIdeal Cert.KernelIdeal.Gen Cert.Proof.Dtc

variable {α : Type}

/-! ## The non-pointwise operations of the two bodies, read at an index -/

/-- The encoder's product `x · W` into a zero accumulator. -/
theorem mm_lat (x0 : FVec Ideal S2048x1024 .f32) (x1 : FVec Ideal S1024x128 .f32) (p : Fin 2048) (d : Fin 128) :
    matmul (φ₁ := .f32) (φ₂ := .f32) dot_S2048x1024_S1024x128_S2048x128_1_0_0_1_n_n none x0 x1 (constant (F := Ideal) S2048x128 .f32 0x00000000#32) (ix2 p d)
      = ∑ k : Fin 1024, x0 (ix2 p k) * x1 (ix2 k d) :=
  Cert.ZeroAccDots.rows_columns _ rfl rfl rfl rfl rfl rfl rfl rfl none x0 x1 p d

/-- A one-row matrix against the rows of a `[512, 128]` matrix: both contracted along their last axis. -/
theorem mm_row (a : FVec Ideal S1x128 .f32) (b : FVec Ideal S512x128 .f32) (u : Fin 1) (q : Fin 512) :
    matmul (φ₁ := .f32) (φ₂ := .f32) dot_S1x128_S512x128_S1x512_1_1_0_0_n_n none a b (constant (F := Ideal) S1x512 .f32 0x00000000#32) (ix2 u q)
      = ∑ d : Fin 128, a (ix2 u d) * b (ix2 q d) :=
  Cert.ZeroAccDots.rows_rows _ rfl rfl rfl rfl rfl rfl rfl rfl none a b u q

/-- The latent rows against the centroid rows, in the first body's block … -/
theorem mm_lc0 (l : FVec Ideal S2048x128 .f32) (c : FVec Ideal S512x128 .f32) (p : Fin 2048) (q : Fin 512) :
    matmul (φ₁ := .f32) (φ₂ := .f32) dot_S2048x128_S512x128_S2048x512_1_1_0_0_n_n none l c (constant (F := Ideal) S2048x512 .f32 0x00000000#32) (ix2 p q)
      = ∑ d : Fin 128, l (ix2 p d) * c (ix2 q d) :=
  Cert.ZeroAccDots.rows_rows _ rfl rfl rfl rfl rfl rfl rfl rfl none l c p q

/-- … and in the second body's. -/
theorem mm_lc1 (l : FVec Ideal S4096x128 .f32) (c : FVec Ideal S512x128 .f32) (p : Fin 4096) (q : Fin 512) :
    matmul (φ₁ := .f32) (φ₂ := .f32) dot_S4096x128_S512x128_S4096x512_1_1_0_0_n_n none l c (constant (F := Ideal) S4096x512 .f32 0x00000000#32) (ix2 p q)
      = ∑ d : Fin 128, l (ix2 p d) * c (ix2 q d) :=
  Cert.ZeroAccDots.rows_rows _ rfl rfl rfl rfl rfl rfl rfl rfl none l c p q

/-- The sum along the lanes of an `[a, b]` matrix from the zero word, as the bodies spell it. -/
def laneSum {a b : ℕ} (h : (⟨2, ![a, b]⟩ : Shape).Reduces [1] ⟨1, ![a]⟩) (src : FVec Ideal ⟨2, ![a, b]⟩ .f32) :
    FVec Ideal ⟨1, ![a]⟩ .f32 :=
  multiReduction .add [1] ⟨1, ![a]⟩ src 0x00000000#32 h (.inl rfl) rfl

/-- It is the plain sum of the row. -/
theorem laneSum_apply {a b : ℕ} (h : (⟨2, ![a, b]⟩ : Shape).Reduces [1] ⟨1, ![a]⟩) (src : FVec Ideal ⟨2, ![a, b]⟩ .f32)
    (p : Fin a) : laneSum h src (ix1 p) = ∑ c : Fin b, src (ix2 p c) :=
  Cert.LibIx2.multiReduction_add_lanes_apply src _ h _ _ p

/-- The sum down the rows of an `[a, b]` matrix from the zero word, as the bodies spell it. -/
def colSum {a b : ℕ} (h : (⟨2, ![a, b]⟩ : Shape).Reduces [0] ⟨1, ![b]⟩) (src : FVec Ideal ⟨2, ![a, b]⟩ .f32) :
    FVec Ideal ⟨1, ![b]⟩ .f32 :=
  multiReduction .add [0] ⟨1, ![b]⟩ src 0x00000000#32 h (.inl rfl) rfl

/-- It is the plain sum of the column. -/
theorem colSum_apply {a b : ℕ} (h : (⟨2, ![a, b]⟩ : Shape).Reduces [0] ⟨1, ![b]⟩) (src : FVec Ideal ⟨2, ![a, b]⟩ .f32)
    (q : Fin b) : colSum h src (ix1 q) = ∑ p : Fin a, src (ix2 p q) :=
  Cert.LibColumnSums.multiReduction_add_rows_apply src _ h _ _ q

/-- A vector `[a]` viewed as `[1, 1, a]` reads its entry. -/
theorem cast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp [hu, hv])

/-- An `[a, 1, b]` array with its unit axis dropped reads the operand at `(i, 0, q)`. -/
theorem cast_a1b_ab_apply {a b : ℕ} (x : (⟨3, ![a, 1, b]⟩ : Shape).Idx → α) (h : (⟨3, ![a, 1, b]⟩ : Shape).ShapeCasts ⟨2, ![a, b]⟩)
    (i : Fin a) (q : Fin b) : shapeCast ⟨2, ![a, b]⟩ x h (ix2 i q) = x (ix3 i (0 : Fin 1) q) :=
  shapeCast_apply x h _ _ (by
    rw [Shape.rowMajor_val_three, Shape.rowMajor_val_two]
    show (i.val * 1 + 0) * b + q.val = i.val * b + q.val
    rw [Nat.mul_one, Nat.add_zero])

/-! ## The bodies' values over these sums -/

/-- The Student-t weights of a block of 2048 latent rows `l` against the centroids `c`, as body 0 computes them:
    `1 / (1 + (‖l‖² + ‖c‖² − 2 l·c))`, the centroid norms by a product with a row of ones. -/
def numBlock0 (l : FVec Ideal S2048x128 .f32) (c : FVec Ideal S512x128 .f32) : FVec Ideal S2048x512 .f32 :=
  divf (broadcast S2048x512 (Scalar.ofBits .f32 0x3F800000#32))
    (addf (broadcast S2048x512 (Scalar.ofBits .f32 0x3F800000#32))
      (subf
        (addf
          (broadcastTo S2048x512 (shapeCast S2048x1 (laneSum reduces_S2048x128_S2048 (mulf l l)) shapeCasts_S2048_S2048x1) broadcasts_S2048x1_S2048x512)
          (broadcastTo S2048x512
            (matmul dot_S1x128_S512x128_S1x512_1_1_0_0_n_n none (broadcast S1x128 (Scalar.ofBits .f32 0x3F800000#32)) (mulf c c) (constant S1x512 .f32 0x00000000#32))
            broadcasts_S1x512_S2048x512))
        (mulf (broadcast S2048x512 (Scalar.ofBits .f32 0x40000000#32))
          (matmul dot_S2048x128_S512x128_S2048x512_1_1_0_0_n_n none l c (constant S2048x512 .f32 0x00000000#32)))))

theorem numBlock0_apply (l : FVec Ideal S2048x128 .f32) (c : FVec Ideal S512x128 .f32) (p : Fin 2048) (q : Fin 512) :
    numBlock0 l c (ix2 p q) = numKE (fun d : Fin 128 => l (ix2 p d)) (fun (k : Fin 512) (d : Fin 128) => c (ix2 k d)) q := by
  unfold numBlock0 numKE distKE
  simp only [divf_apply, addf_apply, subf_apply, mulf_apply, broadcast_apply, mm_row, mm_lc0, laneSum_apply,
    Cert.LibIx2.shapeCast_a_a1_apply, Cert.LibIx2.broadcastTo_a1_ab_apply, broadcastTo_1b_ab_apply, Ideal.ofBits_def]

/-- The Student-t weights of a block of 4096 latent rows `l` against the centroids `c`, as body 1 computes them:
    `1 / (1 + (‖l‖² + ‖c‖² − 2 l·c))`, the centroid norms by a product with a row of ones. -/
def numBlock1 (l : FVec Ideal S4096x128 .f32) (c : FVec Ideal S512x128 .f32) : FVec Ideal S4096x512 .f32 :=
  divf (broadcast S4096x512 (Scalar.ofBits .f32 0x3F800000#32))
    (addf (broadcast S4096x512 (Scalar.ofBits .f32 0x3F800000#32))
      (subf
        (addf
          (broadcastTo S4096x512 (shapeCast S4096x1 (laneSum reduces_S4096x128_S4096 (mulf l l)) shapeCasts_S4096_S4096x1) broadcasts_S4096x1_S4096x512)
          (broadcastTo S4096x512
            (matmul dot_S1x128_S512x128_S1x512_1_1_0_0_n_n none (broadcast S1x128 (Scalar.ofBits .f32 0x3F800000#32)) (mulf c c) (constant S1x512 .f32 0x00000000#32))
            broadcasts_S1x512_S4096x512))
        (mulf (broadcast S4096x512 (Scalar.ofBits .f32 0x40000000#32))
          (matmul dot_S4096x128_S512x128_S4096x512_1_1_0_0_n_n none l c (constant S4096x512 .f32 0x00000000#32)))))

theorem numBlock1_apply (l : FVec Ideal S4096x128 .f32) (c : FVec Ideal S512x128 .f32) (p : Fin 4096) (q : Fin 512) :
    numBlock1 l c (ix2 p q) = numKE (fun d : Fin 128 => l (ix2 p d)) (fun (k : Fin 512) (d : Fin 128) => c (ix2 k d)) q := by
  unfold numBlock1 numKE distKE
  simp only [divf_apply, addf_apply, subf_apply, mulf_apply, broadcast_apply, mm_row, mm_lc1, laneSum_apply,
    Cert.LibIx2.shapeCast_a_a1_apply, Cert.LibIx2.broadcastTo_a1_ab_apply, broadcastTo_1b_ab_apply, Ideal.ofBits_def]

/-- The first body's block of weights: the Student-t weights divided by their row sums. -/
def qBlock0 (l : FVec Ideal S2048x128 .f32) (c : FVec Ideal S512x128 .f32) : FVec Ideal S2048x512 .f32 :=
  divf (numBlock0 l c)
    (broadcastTo S2048x512 (shapeCast S2048x1 (laneSum reduces_S2048x512_S2048 (numBlock0 l c)) shapeCasts_S2048_S2048x1) broadcasts_S2048x1_S2048x512)

/-- The second body's block: the squared weights over the column sums (the 32 slabs added), divided by their row sums. -/
def pBlock1 (l : FVec Ideal S4096x128 .f32) (c : FVec Ideal S512x128 .f32) (f : FVec Ideal S32x1x512 .f32) : FVec Ideal S4096x512 .f32 :=
  divf
    (divf (mulf (numBlock1 l c) (numBlock1 l c))
      (broadcastTo S4096x512
        (shapeCast S1x512 (colSum reduces_S32x512_S512 (shapeCast S32x512 f shapeCasts_S32x1x512_S32x512)) shapeCasts_S512_S1x512)
        broadcasts_S1x512_S4096x512))
    (broadcastTo S4096x512
      (shapeCast S4096x1
        (laneSum reduces_S4096x512_S4096
          (divf (mulf (numBlock1 l c) (numBlock1 l c))
            (broadcastTo S4096x512
              (shapeCast S1x512 (colSum reduces_S32x512_S512 (shapeCast S32x512 f shapeCasts_S32x1x512_S32x512)) shapeCasts_S512_S1x512)
              broadcasts_S1x512_S4096x512)))
        shapeCasts_S4096_S4096x1)
      broadcasts_S4096x1_S4096x512)

/-- The generated payloads are these terms. -/
theorem pay3_eq (x0 : Vec Ideal S2048x1024 .f32) (x1 : Vec Ideal S1024x128 .f32) (x2 : Vec Ideal S1x128 .f32) (x3 : Vec Ideal S512x128 .f32) :
    k0_pay3 (F := Ideal) x0 x1 x2 x3 = qBlock0 (k0_pay2 (F := Ideal) x0 x1 x2) x3 := rfl
theorem pay4_eq (x0 : Vec Ideal S2048x1024 .f32) (x1 : Vec Ideal S1024x128 .f32) (x2 : Vec Ideal S1x128 .f32) (x3 : Vec Ideal S512x128 .f32) :
    k0_pay4 (F := Ideal) x0 x1 x2 x3 = colSum reduces_S2048x512_S512 (k0_pay3 (F := Ideal) x0 x1 x2 x3) := rfl
theorem k1_pay1_eq (v0 : Vec Ideal S4096x128 .f32) (v2 : Vec Ideal S512x128 .f32) (v20 : Vec Ideal S32x1x512 .f32) :
    k1_pay1 (F := Ideal) v0 v2 v20 = pBlock1 (shapeCast S4096x128 v0 shapeCasts_S4096x128_S4096x128) v2 v20 := rfl

/-! ## The first body's stores -/

/-- The latent block: row `p` of `x · W` plus the bias row. -/
theorem pay2_apply (x0 : Vec Ideal S2048x1024 .f32) (x1 : Vec Ideal S1024x128 .f32) (x2 : Vec Ideal S1x128 .f32)
    (p : Fin 2048) (d : Fin 128) :
    k0_pay2 (F := Ideal) x0 x1 x2 (ix2 p d)
      = (∑ k : Fin 1024, x0 (ix2 p k) * x1 (ix2 k d)) + x2 (ix2 (0 : Fin 1) d) := by
  unfold k0_pay2
  simp only [addf_apply, mm_lat, shapeCast_self, broadcastTo_1b_ab_apply]

/-- The block of row-normalised weights: entry `(p, q)` is the weight of centroid `q` for the latent row `p`,
    divided by that row's sum of weights. -/
theorem pay3_apply (x0 : Vec Ideal S2048x1024 .f32) (x1 : Vec Ideal S1024x128 .f32) (x2 : Vec Ideal S1x128 .f32)
    (x3 : Vec Ideal S512x128 .f32) (p : Fin 2048) (q : Fin 512) :
    k0_pay3 (F := Ideal) x0 x1 x2 x3 (ix2 p q)
      = qKE (fun d : Fin 128 => k0_pay2 (F := Ideal) x0 x1 x2 (ix2 p d)) (fun (k : Fin 512) (d : Fin 128) => x3 (ix2 k d)) q := by
  rw [pay3_eq]
  unfold qBlock0 qKE
  simp only [divf_apply, numBlock0_apply, laneSum_apply, Cert.LibIx2.shapeCast_a_a1_apply, Cert.LibIx2.broadcastTo_a1_ab_apply]

/-- The block's partial column sums, stored as a `[1, 1, 512]` slab. -/
theorem pay1_pay4_apply (x0 : Vec Ideal S2048x1024 .f32) (x1 : Vec Ideal S1024x128 .f32) (x2 : Vec Ideal S1x128 .f32)
    (x3 : Vec Ideal S512x128 .f32) (u v : Fin 1) (q : Fin 512) :
    k0_pay1 (F := Ideal) (k0_pay4 (F := Ideal) x0 x1 x2 x3) (ix3 u v q)
      = ∑ p : Fin 2048, k0_pay3 (F := Ideal) x0 x1 x2 x3 (ix2 p q) := by
  rw [pay4_eq]
  unfold k0_pay1
  simp only [cast_a_11a_apply, colSum_apply]

/-! ## The second body's store -/

/-- The block of the target distribution: entry `(p, q)` from the latent row `p`, the centroids, and the column
    sums obtained by adding the 32 partial slabs. -/
theorem k1_pay1_apply (v0 : Vec Ideal S4096x128 .f32) (v2 : Vec Ideal S512x128 .f32) (v20 : Vec Ideal S32x1x512 .f32)
    (p : Fin 4096) (q : Fin 512) :
    k1_pay1 (F := Ideal) v0 v2 v20 (ix2 p q)
      = pKE (fun d : Fin 128 => v0 (ix2 p d)) (fun (k : Fin 512) (d : Fin 128) => v2 (ix2 k d))
          (fun k : Fin 512 => ∑ i : Fin 32, v20 (ix3 i (0 : Fin 1) k)) q := by
  rw [k1_pay1_eq, shapeCast_self]
  unfold pBlock1 pKE
  simp only [divf_apply, mulf_apply, numBlock1_apply, laneSum_apply, colSum_apply, shapeCast_a_1a_apply, cast_a1b_ab_apply,
    Cert.LibIx2.shapeCast_a_a1_apply, Cert.LibIx2.broadcastTo_a1_ab_apply, broadcastTo_1b_ab_apply]

end Cert.KernelIdeal.Pay

end
-- ==== Proof.KernelBlocks.lean ====
/-
  From blocks to arrays, for the idealized kernel. The first region walks 32 row blocks of 2048 rows, the second 16
  row blocks of 4096 rows; every other operand is read whole at every point. A block's row `p` at point `t` is row
  `2048·t + p` (resp. `4096·t + p`) of the array, and each stored entry depends only on that row, so what a point
  writes back is the restriction of ONE function of the whole arrays to the point's block; the blocks tile each result
  array, so each array ends holding that function: the latent array, the row-normalised weights, the 32 slabs of
  partial column sums, and the target distribution.
-/
import proofs.«153195_g7000796692862_feedfinal_2_13_alg».proof.Proof.Gen.KernelIdeal.Frame
import proofs.«153195_g7000796692862_feedfinal_2_13_alg».proof.Proof.KernelPay
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Proof.Dtc

/-! ## The whole-array functions -/

/-- An array of shape `[a, b]` from a function of its two coordinates. -/
def arr2 {a b : ℕ} (g : Fin a → Fin b → EReal) : (⟨2, ![a, b]⟩ : Shape).Idx → EReal := fun i => g (i 0) (i 1)

/-- An array of shape `[a, b, c]` from a function of its three coordinates. -/
def arr3 {a b c : ℕ} (g : Fin a → Fin b → Fin c → EReal) : (⟨3, ![a, b, c]⟩ : Shape).Idx → EReal := fun i => g (i 0) (i 1) (i 2)

theorem arr2_ix2 {a b : ℕ} (g : Fin a → Fin b → EReal) (p : Fin a) (q : Fin b) : arr2 g (ix2 p q) = g p q := rfl
theorem arr3_ix3 {a b c : ℕ} (g : Fin a → Fin b → Fin c → EReal) (p : Fin a) (q : Fin b) (r : Fin c) :
    arr3 g (ix3 p q r) = g p q r := rfl

/-- The latent entry `(n, d)`: row `n` of `x · W` plus the bias. -/
def latentFn (X : S65536x1024.Idx → EReal) (Wm : S1024x128.Idx → EReal) (B : S1x128.Idx → EReal) (n : Fin 65536) (d : Fin 128) : EReal :=
  (∑ k : Fin 1024, X (ix2 n k) * Wm (ix2 k d)) + B (ix2 (0 : Fin 1) d)

/-- The row-normalised weight `(n, k)`, from the latent row `n` and the centroids. -/
def weightFn (L : Fin 65536 → Fin 128 → EReal) (C : S512x128.Idx → EReal) (n : Fin 65536) (k : Fin 512) : EReal :=
  qKE (fun d : Fin 128 => L n d) (fun (k : Fin 512) (d : Fin 128) => C (ix2 k d)) k

/-- Row `p` of row block `b` of 2048 rows. -/
def rowOf (b : Fin 32) (p : Fin 2048) : Fin 65536 := ⟨2048 * b.val + p.val, by have := b.isLt; have := p.isLt; omega⟩

/-- Slab `b` of the partial column sums: the weights of block `b`'s 2048 rows added. -/
def slabFn (Q : Fin 65536 → Fin 512 → EReal) (b : Fin 32) (_u : Fin 1) (k : Fin 512) : EReal :=
  ∑ p : Fin 2048, Q (rowOf b p) k

/-- The target entry `(n, k)`, from the latent row `n`, the centroids and the 32 slabs of partial column sums. -/
def targetFn (L : S65536x128.Idx → EReal) (C : S512x128.Idx → EReal) (Fp : S32x1x512.Idx → EReal) (n : Fin 65536) (k : Fin 512) : EReal :=
  pKE (fun d : Fin 128 => L (ix2 n d)) (fun (k : Fin 512) (d : Fin 128) => C (ix2 k d))
    (fun k : Fin 512 => ∑ i : Fin 32, Fp (ix3 i (0 : Fin 1) k)) k

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the grids -/

theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

theorem N0 : cfg0.N = 32 := N_0
theorem N1 : cfg1.N = 16 := N_1

/-- The first region's point as a block number. -/
def blk0 (t : Fin cfg0.N) : Fin 32 := ⟨t.val, by have h : t.val < cfg0.N := t.isLt; have hN : cfg0.N = 32 := N0; omega⟩
/-- Row `p` of the first region's block at point `t`. -/
def row0 (t : Fin cfg0.N) (p : Fin 2048) : Fin 65536 := rowOf (blk0 t) p
/-- Row `p` of the second region's block at point `t`. -/
def row1 (t : Fin cfg1.N) (p : Fin 4096) : Fin 65536 :=
  ⟨4096 * t.val + p.val, by have h : t.val < cfg1.N := t.isLt; have hN : cfg1.N = 16 := N1; have := p.isLt; omega⟩

/-! ## The input blocks as rows of their arrays -/

theorem iblk0_0_apply (c : Dev nD) (t : Fin cfg0.N) (p : Fin 2048) (k : Fin 1024) :
    (iblk0 (V1 m ρ) c 0 t : Vec Ideal S2048x1024 .f32) (ix2 p k)
      = (V1 m ρ c main_arg0 : S65536x1024.Idx → EReal) (ix2 (row0 t p) k) := by
  obtain ⟨h00, h01, h10, h11, h20, h21, h30, h31, h40, h41, h50, h51, h60, h61, h62⟩ := idx0 t
  unfold iblk0
  rw [View.read_apply]
  show V1 m ρ c main_arg0 _ = V1 m ρ c main_arg0 _
  refine congrArg _ ?_
  funext a
  apply Fin.ext
  match a with
  | ⟨0, _⟩ => show win0_0.index t 0 * 2048 + 1 * p.val = 2048 * t.val + p.val; rw [h00]; omega
  | ⟨1, _⟩ => show win0_0.index t 1 * 1024 + 1 * k.val = k.val; rw [h01]; omega

theorem iblk0_1_apply (c : Dev nD) (t : Fin cfg0.N) (k : Fin 1024) (d : Fin 128) :
    (iblk0 (V1 m ρ) c 1 t : Vec Ideal S1024x128 .f32) (ix2 k d)
      = (V1 m ρ c main_arg1 : S1024x128.Idx → EReal) (ix2 k d) := by
  obtain ⟨h00, h01, h10, h11, h20, h21, h30, h31, h40, h41, h50, h51, h60, h61, h62⟩ := idx0 t
  unfold iblk0
  rw [View.read_apply]
  show V1 m ρ c main_arg1 _ = V1 m ρ c main_arg1 _
  refine congrArg _ ?_
  funext a
  apply Fin.ext
  match a with
  | ⟨0, _⟩ => show win0_1.index t 0 * 1024 + 1 * k.val = k.val; rw [h10]; omega
  | ⟨1, _⟩ => show win0_1.index t 1 * 128 + 1 * d.val = d.val; rw [h11]; omega

theorem iblk0_2_apply (c : Dev nD) (t : Fin cfg0.N) (u : Fin 1) (d : Fin 128) :
    (iblk0 (V1 m ρ) c 2 t : Vec Ideal S1x128 .f32) (ix2 u d)
      = (V1 m ρ c main_v0 : S1x128.Idx → EReal) (ix2 u d) := by
  obtain ⟨h00, h01, h10, h11, h20, h21, h30, h31, h40, h41, h50, h51, h60, h61, h62⟩ := idx0 t
  unfold iblk0
  rw [View.read_apply]
  show V1 m ρ c main_v0 _ = V1 m ρ c main_v0 _
  refine congrArg _ ?_
  funext a
  apply Fin.ext
  match a with
  | ⟨0, _⟩ => show win0_2.index t 0 * 1 + 1 * u.val = u.val; rw [h20]; omega
  | ⟨1, _⟩ => show win0_2.index t 1 * 128 + 1 * d.val = d.val; rw [h21]; omega

theorem iblk0_3_apply (c : Dev nD) (t : Fin cfg0.N) (k : Fin 512) (d : Fin 128) :
    (iblk0 (V1 m ρ) c 3 t : Vec Ideal S512x128 .f32) (ix2 k d)
      = (V1 m ρ c main_arg3 : S512x128.Idx → EReal) (ix2 k d) := by
  obtain ⟨h00, h01, h10, h11, h20, h21, h30, h31, h40, h41, h50, h51, h60, h61, h62⟩ := idx0 t
  unfold iblk0
  rw [View.read_apply]
  show V1 m ρ c main_arg3 _ = V1 m ρ c main_arg3 _
  refine congrArg _ ?_
  funext a
  apply Fin.ext
  match a with
  | ⟨0, _⟩ => show win0_3.index t 0 * 512 + 1 * k.val = k.val; rw [h30]; omega
  | ⟨1, _⟩ => show win0_3.index t 1 * 128 + 1 * d.val = d.val; rw [h31]; omega

theorem iblk1_0_apply (c : Dev nD) (t : Fin cfg1.N) (p : Fin 4096) (d : Fin 128) :
    (iblk1 (V2 m ρ) c 0 t : Vec Ideal S4096x128 .f32) (ix2 p d)
      = (V2 m ρ c main_v1_0 : S65536x128.Idx → EReal) (ix2 (row1 t p) d) := by
  obtain ⟨g00, g01, g10, g11, g20, g21, g22, g30, g31⟩ := idx1 t
  unfold iblk1
  rw [View.read_apply]
  show V2 m ρ c main_v1_0 _ = V2 m ρ c main_v1_0 _
  refine congrArg _ ?_
  funext a
  apply Fin.ext
  match a with
  | ⟨0, _⟩ => show win1_0.index t 0 * 4096 + 1 * p.val = 4096 * t.val + p.val; rw [g00]; omega
  | ⟨1, _⟩ => show win1_0.index t 1 * 128 + 1 * d.val = d.val; rw [g01]; omega

theorem iblk1_1_apply (c : Dev nD) (t : Fin cfg1.N) (k : Fin 512) (d : Fin 128) :
    (iblk1 (V2 m ρ) c 1 t : Vec Ideal S512x128 .f32) (ix2 k d)
      = (V2 m ρ c main_arg3 : S512x128.Idx → EReal) (ix2 k d) := by
  obtain ⟨g00, g01, g10, g11, g20, g21, g22, g30, g31⟩ := idx1 t
  unfold iblk1
  rw [View.read_apply]
  show V2 m ρ c main_arg3 _ = V2 m ρ c main_arg3 _
  refine congrArg _ ?_
  funext a
  apply Fin.ext
  match a with
  | ⟨0, _⟩ => show win1_1.index t 0 * 512 + 1 * k.val = k.val; rw [g10]; omega
  | ⟨1, _⟩ => show win1_1.index t 1 * 128 + 1 * d.val = d.val; rw [g11]; omega

theorem iblk1_2_apply (c : Dev nD) (t : Fin cfg1.N) (i : Fin 32) (u : Fin 1) (k : Fin 512) :
    (iblk1 (V2 m ρ) c 2 t : Vec Ideal S32x1x512 .f32) (ix3 i u k)
      = (V2 m ρ c main_v1_2 : S32x1x512.Idx → EReal) (ix3 i u k) := by
  obtain ⟨g00, g01, g10, g11, g20, g21, g22, g30, g31⟩ := idx1 t
  unfold iblk1
  rw [View.read_apply]
  show V2 m ρ c main_v1_2 _ = V2 m ρ c main_v1_2 _
  refine congrArg _ ?_
  funext a
  apply Fin.ext
  match a with
  | ⟨0, _⟩ => show win1_2.index t 0 * 32 + 1 * i.val = i.val; rw [g20]; omega
  | ⟨1, _⟩ => show win1_2.index t 1 * 1 + 1 * u.val = u.val; rw [g21]; omega
  | ⟨2, _⟩ => show win1_2.index t 2 * 512 + 1 * k.val = k.val; rw [g22]; omega

/-! ## Each stored entry as a function of the whole arrays -/

/-- The first body's latent entry `(p, d)` at point `t` is the latent entry of row `2048·t + p`. -/
theorem entry_latent (c : Dev nD) (t : Fin cfg0.N) (p : Fin 2048) (d : Fin 128) :
    k0_pay2 (F := Ideal) (iblk0 (V1 m ρ) c 0 t) (iblk0 (V1 m ρ) c 1 t) (iblk0 (V1 m ρ) c 2 t) (ix2 p d) = latentFn (V1 m ρ c main_arg0) (V1 m ρ c main_arg1) (V1 m ρ c main_v0) (row0 t p) d := by
  refine (Pay.pay2_apply _ _ _ p d).trans ?_
  unfold latentFn
  simp only [iblk0_0_apply, iblk0_1_apply, iblk0_2_apply]

/-- Its weight entry `(p, q)` is the row-normalised weight of row `2048·t + p`. -/
theorem entry_weights (c : Dev nD) (t : Fin cfg0.N) (p : Fin 2048) (q : Fin 512) :
    k0_pay3 (F := Ideal) (iblk0 (V1 m ρ) c 0 t) (iblk0 (V1 m ρ) c 1 t) (iblk0 (V1 m ρ) c 2 t) (iblk0 (V1 m ρ) c 3 t) (ix2 p q) = weightFn (latentFn (V1 m ρ c main_arg0) (V1 m ρ c main_arg1) (V1 m ρ c main_v0)) (V1 m ρ c main_arg3) (row0 t p) q := by
  refine (Pay.pay3_apply _ _ _ _ p q).trans ?_
  unfold weightFn
  simp only [entry_latent, iblk0_3_apply]

/-- Its slab of partial column sums adds the weights of the block's 2048 rows. -/
theorem entry_partials (c : Dev nD) (t : Fin cfg0.N) (u v : Fin 1) (q : Fin 512) :
    k0_pay1 (F := Ideal) (k0_pay4 (F := Ideal) (iblk0 (V1 m ρ) c 0 t) (iblk0 (V1 m ρ) c 1 t) (iblk0 (V1 m ρ) c 2 t) (iblk0 (V1 m ρ) c 3 t)) (ix3 u v q)
      = slabFn (weightFn (latentFn (V1 m ρ c main_arg0) (V1 m ρ c main_arg1) (V1 m ρ c main_v0)) (V1 m ρ c main_arg3)) (blk0 t) v q := by
  refine (Pay.pay1_pay4_apply _ _ _ _ u v q).trans ?_
  unfold slabFn
  exact Finset.sum_congr rfl fun p _ => entry_weights m ρ c t p q

/-- The second body's entry `(p, q)` at point `t` is the target entry of row `4096·t + p`. -/
theorem entry_target (c : Dev nD) (t : Fin cfg1.N) (p : Fin 4096) (q : Fin 512) :
    k1_pay1 (F := Ideal) (iblk1 (V2 m ρ) c 0 t) (iblk1 (V2 m ρ) c 1 t) (iblk1 (V2 m ρ) c 2 t) (ix2 p q) = targetFn (V2 m ρ c main_v1_0) (V2 m ρ c main_arg3) (V2 m ρ c main_v1_2) (row1 t p) q := by
  refine (Pay.k1_pay1_apply _ _ _ p q).trans ?_
  unfold targetFn
  simp only [iblk1_0_apply, iblk1_1_apply, iblk1_2_apply]

/-! ## What each point writes back -/

/-- Point `t` of the first region writes back block `t` of the latent array's function. -/
theorem flushed_latent (c : Dev nD) (t : Fin cfg0.N) :
    (dat0 (V1 m ρ) c).flushed 4 t = ((cfg0.win 4).blk t).view.read (Elt Ideal) (arr2 (latentFn (V1 m ρ c main_arg0) (V1 m ρ c main_arg1) (V1 m ρ c main_v0))) := by
  show (cfg0.win 4).cut (grid0.coords t) ((dat0 (V1 m ρ) c).after 4 t) = _
  rw [after0_4]
  unfold out0_4
  rw [View.canon_unit_zero hz2]
  simp only [View.ld_unit_zero (S := S2048x1024) hz2, View.ld_unit_zero (S := S1024x128) hz2, View.ld_unit_zero (S := S1x128) hz2]
  obtain ⟨h00, h01, h10, h11, h20, h21, h30, h31, h40, h41, h50, h51, h60, h61, h62⟩ := idx0 t
  funext j
  obtain ⟨p, d, rfl⟩ : ∃ (p : Fin 2048) (d : Fin 128), j = ix2 p d := ⟨j 0, j 1, eq_ix2 j⟩
  show k0_pay2 (F := Ideal) (iblk0 (V1 m ρ) c 0 t) (iblk0 (V1 m ρ) c 1 t) (iblk0 (V1 m ρ) c 2 t) (ix2 p d) = arr2 (latentFn (V1 m ρ c main_arg0) (V1 m ρ c main_arg1) (V1 m ρ c main_v0)) (((cfg0.win 4).blk t).view.emb (ix2 p d))
  have he : ((cfg0.win 4).blk t).view.emb (ix2 p d) = (ix2 (row0 t p) d : S65536x128.Idx) := by
    funext a
    apply Fin.ext
    match a with
    | ⟨0, _⟩ => show win0_4.index t 0 * 2048 + 1 * p.val = 2048 * t.val + p.val; rw [h40]; omega
    | ⟨1, _⟩ => show win0_4.index t 1 * 128 + 1 * d.val = d.val; rw [h41]; omega
  exact (entry_latent m ρ c t p d).trans (congrArg (arr2 (latentFn (V1 m ρ c main_arg0) (V1 m ρ c main_arg1) (V1 m ρ c main_v0))) he).symm

/-- … and block `t` of the weights' function … -/
theorem flushed_weights (c : Dev nD) (t : Fin cfg0.N) :
    (dat0 (V1 m ρ) c).flushed 5 t = ((cfg0.win 5).blk t).view.read (Elt Ideal) (arr2 (weightFn (latentFn (V1 m ρ c main_arg0) (V1 m ρ c main_arg1) (V1 m ρ c main_v0)) (V1 m ρ c main_arg3))) := by
  show (cfg0.win 5).cut (grid0.coords t) ((dat0 (V1 m ρ) c).after 5 t) = _
  rw [after0_5]
  unfold out0_5
  rw [View.canon_unit_zero hz2]
  simp only [View.ld_unit_zero (S := S2048x1024) hz2, View.ld_unit_zero (S := S1024x128) hz2, View.ld_unit_zero (S := S1x128) hz2, View.ld_unit_zero (S := S512x128) hz2]
  obtain ⟨h00, h01, h10, h11, h20, h21, h30, h31, h40, h41, h50, h51, h60, h61, h62⟩ := idx0 t
  funext j
  obtain ⟨p, q, rfl⟩ : ∃ (p : Fin 2048) (q : Fin 512), j = ix2 p q := ⟨j 0, j 1, eq_ix2 j⟩
  show k0_pay3 (F := Ideal) (iblk0 (V1 m ρ) c 0 t) (iblk0 (V1 m ρ) c 1 t) (iblk0 (V1 m ρ) c 2 t) (iblk0 (V1 m ρ) c 3 t) (ix2 p q) = arr2 (weightFn (latentFn (V1 m ρ c main_arg0) (V1 m ρ c main_arg1) (V1 m ρ c main_v0)) (V1 m ρ c main_arg3)) (((cfg0.win 5).blk t).view.emb (ix2 p q))
  have he : ((cfg0.win 5).blk t).view.emb (ix2 p q) = (ix2 (row0 t p) q : S65536x512.Idx) := by
    funext a
    apply Fin.ext
    match a with
    | ⟨0, _⟩ => show win0_5.index t 0 * 2048 + 1 * p.val = 2048 * t.val + p.val; rw [h50]; omega
    | ⟨1, _⟩ => show win0_5.index t 1 * 512 + 1 * q.val = q.val; rw [h51]; omega
  exact (entry_weights m ρ c t p q).trans (congrArg (arr2 (weightFn (latentFn (V1 m ρ c main_arg0) (V1 m ρ c main_arg1) (V1 m ρ c main_v0)) (V1 m ρ c main_arg3))) he).symm

/-- … and slab `t` of the partial column sums. -/
theorem flushed_partials (c : Dev nD) (t : Fin cfg0.N) :
    (dat0 (V1 m ρ) c).flushed 6 t = ((cfg0.win 6).blk t).view.read (Elt Ideal) (arr3 (slabFn (weightFn (latentFn (V1 m ρ c main_arg0) (V1 m ρ c main_arg1) (V1 m ρ c main_v0)) (V1 m ρ c main_arg3)))) := by
  show (cfg0.win 6).cut (grid0.coords t) ((dat0 (V1 m ρ) c).after 6 t) = _
  rw [after0_6]
  unfold out0_6
  rw [View.canon_unit_zero hz3]
  simp only [View.ld_unit_zero (S := S2048x1024) hz2, View.ld_unit_zero (S := S1024x128) hz2, View.ld_unit_zero (S := S1x128) hz2, View.ld_unit_zero (S := S512x128) hz2]
  obtain ⟨h00, h01, h10, h11, h20, h21, h30, h31, h40, h41, h50, h51, h60, h61, h62⟩ := idx0 t
  funext j
  obtain ⟨u, v, q, rfl⟩ : ∃ (u v : Fin 1) (q : Fin 512), j = ix3 u v q := ⟨j 0, j 1, j 2, eq_ix3 j⟩
  show k0_pay1 (F := Ideal) (k0_pay4 (F := Ideal) (iblk0 (V1 m ρ) c 0 t) (iblk0 (V1 m ρ) c 1 t) (iblk0 (V1 m ρ) c 2 t) (iblk0 (V1 m ρ) c 3 t)) (ix3 u v q)
    = arr3 (slabFn (weightFn (latentFn (V1 m ρ c main_arg0) (V1 m ρ c main_arg1) (V1 m ρ c main_v0)) (V1 m ρ c main_arg3))) (((cfg0.win 6).blk t).view.emb (ix3 u v q))
  have he : ((cfg0.win 6).blk t).view.emb (ix3 u v q) = (ix3 (blk0 t) v q : S32x1x512.Idx) := by
    funext a
    apply Fin.ext
    match a with
    | ⟨0, _⟩ => show win0_6.index t 0 * 1 + 1 * u.val = t.val; rw [h60]; omega
    | ⟨1, _⟩ => show win0_6.index t 1 * 1 + 1 * v.val = v.val; rw [h61]; omega
    | ⟨2, _⟩ => show win0_6.index t 2 * 512 + 1 * q.val = q.val; rw [h62]; omega
  exact (entry_partials m ρ c t u v q).trans (congrArg (arr3 (slabFn (weightFn (latentFn (V1 m ρ c main_arg0) (V1 m ρ c main_arg1) (V1 m ρ c main_v0)) (V1 m ρ c main_arg3)))) he).symm

/-- Point `t` of the second region writes back block `t` of the target's function. -/
theorem flushed_target (c : Dev nD) (t : Fin cfg1.N) :
    (dat1 (V2 m ρ) c).flushed 3 t = ((cfg1.win 3).blk t).view.read (Elt Ideal) (arr2 (targetFn (V2 m ρ c main_v1_0) (V2 m ρ c main_arg3) (V2 m ρ c main_v1_2))) := by
  show (cfg1.win 3).cut (grid1.coords t) ((dat1 (V2 m ρ) c).after 3 t) = _
  rw [after1_3]
  unfold out1_3
  rw [View.canon_unit_zero hz2]
  simp only [View.ld_unit_zero (S := S4096x128) hz2, View.ld_unit_zero (S := S512x128) hz2, View.ld_unit_zero (S := S32x1x512) hz3]
  obtain ⟨g00, g01, g10, g11, g20, g21, g22, g30, g31⟩ := idx1 t
  funext j
  obtain ⟨p, q, rfl⟩ : ∃ (p : Fin 4096) (q : Fin 512), j = ix2 p q := ⟨j 0, j 1, eq_ix2 j⟩
  show k1_pay1 (F := Ideal) (iblk1 (V2 m ρ) c 0 t) (iblk1 (V2 m ρ) c 1 t) (iblk1 (V2 m ρ) c 2 t) (ix2 p q) = arr2 (targetFn (V2 m ρ c main_v1_0) (V2 m ρ c main_arg3) (V2 m ρ c main_v1_2)) (((cfg1.win 3).blk t).view.emb (ix2 p q))
  have he : ((cfg1.win 3).blk t).view.emb (ix2 p q) = (ix2 (row1 t p) q : S65536x512.Idx) := by
    funext a
    apply Fin.ext
    match a with
    | ⟨0, _⟩ => show win1_3.index t 0 * 4096 + 1 * p.val = 4096 * t.val + p.val; rw [g30]; omega
    | ⟨1, _⟩ => show win1_3.index t 1 * 512 + 1 * q.val = q.val; rw [g31]; omega
  exact (entry_target m ρ c t p q).trans (congrArg (arr2 (targetFn (V2 m ρ c main_v1_0) (V2 m ρ c main_arg3) (V2 m ρ c main_v1_2))) he).symm

/-! ## The blocks tile each result array -/

theorem mem_blk_latent (t : Fin cfg0.N) (i : S65536x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v1_0).slice (win0_4.rect t)).set ↔ _
  rw [View.set_slice_whole, Rect.mem_set_unit]
  exact Iff.rfl

theorem cover_latent (i : S65536x128.Idx) :
    ∃ t : Fin cfg0.N, (cfg0.win 4).flush t = true ∧ i ∈ ((cfg0.win 4).blk t).view.set := by
  have hi0 : (i 0).val < 65536 := (i 0).isLt
  have hi1 : (i 1).val < 128 := (i 1).isLt
  obtain ⟨t, ht⟩ : ∃ t : Fin cfg0.N, t.val = (i 0).val / 2048 := ⟨⟨(i 0).val / 2048, by rw [N0]; omega⟩, rfl⟩
  obtain ⟨h00, h01, h10, h11, h20, h21, h30, h31, h40, h41, h50, h51, h60, h61, h62⟩ := idx0 t
  refine ⟨t, flush0_4 t, ?_⟩
  rw [mem_blk_latent]
  intro a
  match a with
  | ⟨0, _⟩ => show win0_4.index t 0 * 2048 ≤ (i 0).val ∧ (i 0).val < win0_4.index t 0 * 2048 + 2048; rw [h40, ht]; omega
  | ⟨1, _⟩ => show win0_4.index t 1 * 128 ≤ (i 1).val ∧ (i 1).val < win0_4.index t 1 * 128 + 128; rw [h41]; omega

theorem mem_blk_weights (t : Fin cfg0.N) (i : S65536x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v1_1).slice (win0_5.rect t)).set ↔ _
  rw [View.set_slice_whole, Rect.mem_set_unit]
  exact Iff.rfl

theorem cover_weights (i : S65536x512.Idx) :
    ∃ t : Fin cfg0.N, (cfg0.win 5).flush t = true ∧ i ∈ ((cfg0.win 5).blk t).view.set := by
  have hi0 : (i 0).val < 65536 := (i 0).isLt
  have hi1 : (i 1).val < 512 := (i 1).isLt
  obtain ⟨t, ht⟩ : ∃ t : Fin cfg0.N, t.val = (i 0).val / 2048 := ⟨⟨(i 0).val / 2048, by rw [N0]; omega⟩, rfl⟩
  obtain ⟨h00, h01, h10, h11, h20, h21, h30, h31, h40, h41, h50, h51, h60, h61, h62⟩ := idx0 t
  refine ⟨t, flush0_5 t, ?_⟩
  rw [mem_blk_weights]
  intro a
  match a with
  | ⟨0, _⟩ => show win0_5.index t 0 * 2048 ≤ (i 0).val ∧ (i 0).val < win0_5.index t 0 * 2048 + 2048; rw [h50, ht]; omega
  | ⟨1, _⟩ => show win0_5.index t 1 * 512 ≤ (i 1).val ∧ (i 1).val < win0_5.index t 1 * 512 + 512; rw [h51]; omega

theorem mem_blk_target (t : Fin cfg1.N) (i : S65536x512.Idx) :
    i ∈ ((cfg1.win 3).blk t).view.set ↔ ∀ a : Fin 2, win1_3.index t a * S4096x512.size a ≤ (i a).val ∧ (i a).val < win1_3.index t a * S4096x512.size a + S4096x512.size a := by
  show i ∈ ((View.whole main_v2).slice (win1_3.rect t)).set ↔ _
  rw [View.set_slice_whole, Rect.mem_set_unit]
  exact Iff.rfl

theorem cover_target (i : S65536x512.Idx) :
    ∃ t : Fin cfg1.N, (cfg1.win 3).flush t = true ∧ i ∈ ((cfg1.win 3).blk t).view.set := by
  have hi0 : (i 0).val < 65536 := (i 0).isLt
  have hi1 : (i 1).val < 512 := (i 1).isLt
  obtain ⟨t, ht⟩ : ∃ t : Fin cfg1.N, t.val = (i 0).val / 4096 := ⟨⟨(i 0).val / 4096, by rw [N1]; omega⟩, rfl⟩
  obtain ⟨g00, g01, g10, g11, g20, g21, g22, g30, g31⟩ := idx1 t
  refine ⟨t, flush1_3 t, ?_⟩
  rw [mem_blk_target]
  intro a
  match a with
  | ⟨0, _⟩ => show win1_3.index t 0 * 4096 ≤ (i 0).val ∧ (i 0).val < win1_3.index t 0 * 4096 + 4096; rw [g30, ht]; omega
  | ⟨1, _⟩ => show win1_3.index t 1 * 512 ≤ (i 1).val ∧ (i 1).val < win1_3.index t 1 * 512 + 512; rw [g31]; omega

theorem mem_blk_partials (t : Fin cfg0.N) (i : S32x1x512.Idx) :
    i ∈ ((cfg0.win 6).blk t).view.set ↔ ∀ a : Fin 3, win0_6.index t a * S1x1x512.size a ≤ (i a).val ∧ (i a).val < win0_6.index t a * S1x1x512.size a + S1x1x512.size a := by
  show i ∈ ((View.whole main_v1_2).slice (win0_6.rect t)).set ↔ _
  rw [View.set_slice_whole, Rect.mem_set_unit]
  exact Iff.rfl

theorem cover_partials (i : S32x1x512.Idx) :
    ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 512 := (i 2).isLt
  obtain ⟨t, ht⟩ : ∃ t : Fin cfg0.N, t.val = (i 0).val := ⟨⟨(i 0).val, by rw [N0]; omega⟩, rfl⟩
  obtain ⟨h00, h01, h10, h11, h20, h21, h30, h31, h40, h41, h50, h51, h60, h61, h62⟩ := idx0 t
  refine ⟨t, flush0_6 t, ?_⟩
  rw [mem_blk_partials]
  intro a
  match a with
  | ⟨0, _⟩ => show win0_6.index t 0 * 1 ≤ (i 0).val ∧ (i 0).val < win0_6.index t 0 * 1 + 1; rw [h60, ht]; omega
  | ⟨1, _⟩ => show win0_6.index t 1 * 1 ≤ (i 1).val ∧ (i 1).val < win0_6.index t 1 * 1 + 1; rw [h61]; omega
  | ⟨2, _⟩ => show win0_6.index t 2 * 512 ≤ (i 2).val ∧ (i 2).val < win0_6.index t 2 * 512 + 512; rw [h62]; omega

/-! ## The arrays after the regions -/

theorem final_latent (c : Dev nD) : (dat0 (V1 m ρ) c).arrAt 4 cfg0.N = arr2 (latentFn (V1 m ρ c main_arg0) (V1 m ρ c main_arg1) (V1 m ρ c main_v0)) :=
  (dat0 (V1 m ρ) c).arrAt_eq_of_cover 4 _ (fun t _ => flushed_latent m ρ c t) cover_latent

theorem final_weights (c : Dev nD) : (dat0 (V1 m ρ) c).arrAt 5 cfg0.N = arr2 (weightFn (latentFn (V1 m ρ c main_arg0) (V1 m ρ c main_arg1) (V1 m ρ c main_v0)) (V1 m ρ c main_arg3)) :=
  (dat0 (V1 m ρ) c).arrAt_eq_of_cover 5 _ (fun t _ => flushed_weights m ρ c t) cover_weights

theorem final_partials (c : Dev nD) : (dat0 (V1 m ρ) c).arrAt 6 cfg0.N = arr3 (slabFn (weightFn (latentFn (V1 m ρ c main_arg0) (V1 m ρ c main_arg1) (V1 m ρ c main_v0)) (V1 m ρ c main_arg3))) :=
  (dat0 (V1 m ρ) c).arrAt_eq_of_cover 6 _ (fun t _ => flushed_partials m ρ c t) cover_partials

theorem final_target (c : Dev nD) : (dat1 (V2 m ρ) c).arrAt 3 cfg1.N = arr2 (targetFn (V2 m ρ c main_v1_0) (V2 m ρ c main_arg3) (V2 m ρ c main_v1_2)) :=
  (dat1 (V2 m ρ) c).arrAt_eq_of_cover 3 _ (fun t _ => flushed_target m ρ c t) cover_target

end Cert.KernelIdeal.Blocks

end
-- ==== Proof.RefValue.lean ====
/-
  The reference's results read at an index, at the ideal instance: the latent entry is a row of `x · W` plus the bias;
  the Student-t weight of row `n` and centroid `k` is `(1 + dist / 1)` raised to `-1`, with the distance expanded
  into row sums added to a zero initial value; the weights are divided by their row sum, the column sums run over all
  rows, and the target divides the squared normalised weights by the column sums and then by their row sum. Each is
  stated through the row formulas of the extended-real layer.
-/
import proofs.«153195_g7000796692862_feedfinal_2_13_alg».proof.Proof.Gen.ReferenceIdeal.Read
import proofs.«153195_g7000796692862_feedfinal_2_13_alg».proof.Proof.DtcLift
import Idealize.ShloMosaic.Lib.ValueIdx

set_option maxRecDepth 16384

noncomputable section

namespace Cert.ReferenceIdeal.RefValue

open Cert.ReferenceIdeal Cert.ReferenceIdeal.Read Idealize.ShloMosaic Idealize.ShloMosaic.ValueIdx Cert.Proof.Dtc

/-! ## The reference's index maps at coordinates -/

theorem il0 (n : Fin 65536) (d : Fin 128) (k : Fin 1024) : lidx_main_v0 (ix2 n d : S65536x128.Idx) k = (ix2 n k : S65536x1024.Idx) :=
  funext fun a => Fin.ext (by match a with | ⟨0, _⟩ => rfl | ⟨1, _⟩ => rfl)
theorem ir0 (n : Fin 65536) (d : Fin 128) (k : Fin 1024) : ridx_main_v0 (ix2 n d : S65536x128.Idx) k = (ix2 k d : S1024x128.Idx) :=
  funext fun a => Fin.ext (by match a with | ⟨0, _⟩ => rfl | ⟨1, _⟩ => rfl)
theorem i2 (n : Fin 65536) (d : Fin 128) : idx_main_v2 (ix2 n d : S65536x128.Idx) = (ix2 (0 : Fin 1) d : S1x128.Idx) :=
  funext fun a => Fin.ext (by match a with | ⟨0, _⟩ => rfl | ⟨1, _⟩ => rfl)
theorem i1 (u : Fin 1) (d : Fin 128) : idx_main_v1 (ix2 u d : S1x128.Idx) = (ix1 d : S128.Idx) :=
  funext fun a => Fin.ext (by match a with | ⟨0, _⟩ => rfl)
theorem i5 (n : Fin 65536) (d : Fin 128) : idx_main_v5 (ix1 n : S65536.Idx) d = (ix2 n d : S65536x128.Idx) :=
  funext fun a => Fin.ext (by match a with | ⟨0, _⟩ => rfl | ⟨1, _⟩ => rfl)
theorem i6 (n : Fin 65536) (u : Fin 1) : idx_main_v6 (ix2 n u : S65536x1.Idx) = (ix1 n : S65536.Idx) :=
  funext fun a => Fin.ext (by match a with | ⟨0, _⟩ => rfl)
theorem i10 (n : Fin 65536) (k : Fin 512) : idx_main_v10 (ix2 n k : S65536x512.Idx) = (ix2 n (0 : Fin 1) : S65536x1.Idx) :=
  funext fun a => Fin.ext (by match a with | ⟨0, _⟩ => rfl | ⟨1, _⟩ => rfl)
theorem i8 (k : Fin 512) (d : Fin 128) : idx_main_v8 (ix1 k : S512.Idx) d = (ix2 k d : S512x128.Idx) :=
  funext fun a => Fin.ext (by match a with | ⟨0, _⟩ => rfl | ⟨1, _⟩ => rfl)
theorem i9 (u : Fin 1) (k : Fin 512) : idx_main_v9 (ix2 u k : S1x512.Idx) = (ix1 k : S512.Idx) :=
  funext fun a => Fin.ext (by match a with | ⟨0, _⟩ => rfl)
theorem i11 (n : Fin 65536) (k : Fin 512) : idx_main_v11 (ix2 n k : S65536x512.Idx) = (ix2 (0 : Fin 1) k : S1x512.Idx) :=
  funext fun a => Fin.ext (by match a with | ⟨0, _⟩ => rfl | ⟨1, _⟩ => rfl)
theorem i13 (d : Fin 128) (k : Fin 512) : idx_main_v13 (ix2 d k : S128x512.Idx) = (ix2 k d : S512x128.Idx) :=
  funext fun a => Fin.ext (by match a with | ⟨0, _⟩ => rfl | ⟨1, _⟩ => rfl)
theorem il14 (n : Fin 65536) (k : Fin 512) (d : Fin 128) : lidx_main_v14 (ix2 n k : S65536x512.Idx) d = (ix2 n d : S65536x128.Idx) :=
  funext fun a => Fin.ext (by match a with | ⟨0, _⟩ => rfl | ⟨1, _⟩ => rfl)
theorem ir14 (n : Fin 65536) (k : Fin 512) (d : Fin 128) : ridx_main_v14 (ix2 n k : S65536x512.Idx) d = (ix2 d k : S128x512.Idx) :=
  funext fun a => Fin.ext (by match a with | ⟨0, _⟩ => rfl | ⟨1, _⟩ => rfl)
theorem i24 (n : Fin 65536) (k : Fin 512) : idx_main_v24 (ix1 n : S65536.Idx) k = (ix2 n k : S65536x512.Idx) :=
  funext fun a => Fin.ext (by match a with | ⟨0, _⟩ => rfl | ⟨1, _⟩ => rfl)
theorem i25 (n : Fin 65536) (u : Fin 1) : idx_main_v25 (ix2 n u : S65536x1.Idx) = (ix1 n : S65536.Idx) :=
  funext fun a => Fin.ext (by match a with | ⟨0, _⟩ => rfl)
theorem i26 (n : Fin 65536) (k : Fin 512) : idx_main_v26 (ix2 n k : S65536x512.Idx) = (ix2 n (0 : Fin 1) : S65536x1.Idx) :=
  funext fun a => Fin.ext (by match a with | ⟨0, _⟩ => rfl | ⟨1, _⟩ => rfl)
theorem i28 (k : Fin 512) (n : Fin 65536) : idx_main_v28 (ix1 k : S512.Idx) n = (ix2 n k : S65536x512.Idx) :=
  funext fun a => Fin.ext (by match a with | ⟨0, _⟩ => rfl | ⟨1, _⟩ => rfl)
theorem i30 (u : Fin 1) (k : Fin 512) : idx_main_v30 (ix2 u k : S1x512.Idx) = (ix1 k : S512.Idx) :=
  funext fun a => Fin.ext (by match a with | ⟨0, _⟩ => rfl)
theorem i31 (n : Fin 65536) (k : Fin 512) : idx_main_v31 (ix2 n k : S65536x512.Idx) = (ix2 (0 : Fin 1) k : S1x512.Idx) :=
  funext fun a => Fin.ext (by match a with | ⟨0, _⟩ => rfl | ⟨1, _⟩ => rfl)
theorem i33 (n : Fin 65536) (k : Fin 512) : idx_main_v33 (ix1 n : S65536.Idx) k = (ix2 n k : S65536x512.Idx) :=
  funext fun a => Fin.ext (by match a with | ⟨0, _⟩ => rfl | ⟨1, _⟩ => rfl)
theorem i34 (n : Fin 65536) (u : Fin 1) : idx_main_v34 (ix2 n u : S65536x1.Idx) = (ix1 n : S65536.Idx) :=
  funext fun a => Fin.ext (by match a with | ⟨0, _⟩ => rfl)
theorem i35 (n : Fin 65536) (k : Fin 512) : idx_main_v35 (ix2 n k : S65536x512.Idx) = (ix2 n (0 : Fin 1) : S65536x1.Idx) :=
  funext fun a => Fin.ext (by match a with | ⟨0, _⟩ => rfl | ⟨1, _⟩ => rfl)

variable (x0 : (⟨S65536x1024, .f32⟩ : BufTy).Contents (Elt Ideal)) (x1 : (⟨S1024x128, .f32⟩ : BufTy).Contents (Elt Ideal))
  (x2 : (⟨S128, .f32⟩ : BufTy).Contents (Elt Ideal)) (x3 : (⟨S512x128, .f32⟩ : BufTy).Contents (Elt Ideal))

/-! ## The results at an index -/

/-- The latent entry `(n, d)`. -/
theorem latent_apply (n : Fin 65536) (d : Fin 128) :
    val_main_v3 (F := Ideal) x0 x1 x2 (ix2 n d) = (∑ k : Fin 1024, x0 (ix2 n k) * x1 (ix2 k d)) + x2 (ix1 d) := by
  simp only [val_main_v3_apply, val_main_v0_apply, val_main_v2_apply, val_main_v1_apply, Ideal.addf_def, Ideal.subf_def, Ideal.mulf_def, Ideal.hostDivf_def, Ideal.hostPowf_def, Ideal.ofBits_def, il0, ir0, i2, i1, i5, i6, i10, i8, i9, i11, i13, il14, ir14, i24, i25, i26, i28, i30, i31, i33, i34, i35]

/-- The Student-t weight `(n, k)`, from the latent row `n` and the centroids. -/
theorem num_apply (n : Fin 65536) (k : Fin 512) :
    val_main_v23 (F := Ideal) x0 x1 x2 x3 (ix2 n k)
      = numRE (fun d : Fin 128 => val_main_v3 (F := Ideal) x0 x1 x2 (ix2 n d)) (fun (k : Fin 512) (d : Fin 128) => x3 (ix2 k d)) k := by
  unfold numRE distRE
  simp only [val_main_v23_apply, val_main_v21_apply, val_main_v20_apply, val_main_cst_3_apply, val_main_v19_apply, val_main_v18_apply, val_main_cst_2_apply, val_main_v17_apply, val_main_v12_apply, val_main_v10_apply, val_main_v6_apply, val_main_v5_apply, val_main_cst_apply, val_main_v4_apply, val_main_v11_apply, val_main_v9_apply, val_main_v8_apply, val_main_cst_0_apply, val_main_v7_apply, val_main_v16_apply, val_main_v15_apply, val_main_cst_1_apply, val_main_v14_apply, val_main_v13_apply, val_main_v22_apply, val_main_cst_4_apply, Ideal.addf_def, Ideal.subf_def, Ideal.mulf_def, Ideal.hostDivf_def, Ideal.hostPowf_def, Ideal.ofBits_def, il0, ir0, i2, i1, i5, i6, i10, i8, i9, i11, i13, il14, ir14, i24, i25, i26, i28, i30, i31, i33, i34, i35]

/-- The row-normalised weight `(n, k)`. -/
theorem weights_apply (n : Fin 65536) (k : Fin 512) :
    val_main_v27 (F := Ideal) x0 x1 x2 x3 (ix2 n k)
      = qRE (fun k' : Fin 512 => val_main_v23 (F := Ideal) x0 x1 x2 x3 (ix2 n k')) k := by
  unfold qRE
  simp only [val_main_v27_apply, val_main_v26_apply, val_main_v25_apply, val_main_v24_apply, val_main_cst_5_apply, Ideal.addf_def, Ideal.subf_def, Ideal.mulf_def, Ideal.hostDivf_def, Ideal.hostPowf_def, Ideal.ofBits_def, il0, ir0, i2, i1, i5, i6, i10, i8, i9, i11, i13, il14, ir14, i24, i25, i26, i28, i30, i31, i33, i34, i35]

/-- The column sum `k` of the normalised weights over all rows. -/
theorem colsum_apply (k : Fin 512) :
    val_main_v28 (F := Ideal) x0 x1 x2 x3 (ix1 k)
      = Ideal.ofBits .f32 0x00000000#32 + ∑ n : Fin 65536, val_main_v27 (F := Ideal) x0 x1 x2 x3 (ix2 n k) := by
  simp only [val_main_v28_apply, val_main_cst_6_apply, Ideal.addf_def, Ideal.subf_def, Ideal.mulf_def, Ideal.hostDivf_def, Ideal.hostPowf_def, Ideal.ofBits_def, il0, ir0, i2, i1, i5, i6, i10, i8, i9, i11, i13, il14, ir14, i24, i25, i26, i28, i30, i31, i33, i34, i35]

/-- The target entry `(n, k)`. -/
theorem target_apply (n : Fin 65536) (k : Fin 512) :
    val_main_v36 (F := Ideal) x0 x1 x2 x3 (ix2 n k)
      = pRE (fun k' : Fin 512 => val_main_v27 (F := Ideal) x0 x1 x2 x3 (ix2 n k'))
          (fun k' : Fin 512 => val_main_v28 (F := Ideal) x0 x1 x2 x3 (ix1 k')) k := by
  unfold pRE
  simp only [val_main_v36_apply, val_main_v35_apply, val_main_v34_apply, val_main_v33_apply, val_main_cst_7_apply, val_main_v32_apply, val_main_v31_apply, val_main_v30_apply, val_main_v29_apply, Ideal.addf_def, Ideal.subf_def, Ideal.mulf_def, Ideal.hostDivf_def, Ideal.hostPowf_def, Ideal.ofBits_def, il0, ir0, i2, i1, i5, i6, i10, i8, i9, i11, i13, il14, ir14, i24, i25, i26, i28, i30, i31, i33, i34, i35]

end Cert.ReferenceIdeal.RefValue

end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.Bridge.lean ====
/-
  The bridge: at real inputs the idealized kernel's arrays and the reference's results are the same functions.
  With real `x`, `W`, `b` and centroids, the latent entry is a real; every Student-t weight is a positive real (the
  distance is a sum of squares), so the row sums, the column sums and the rows' sums of squared weights over column
  sums are positive reals and every quotient is a real quotient. The kernel's column sums add 32 slabs of 2048 rows
  each, the reference's add all 65536 rows at once: one sum, regrouped. The kernel's target squares the unnormalised
  weights, the reference's the normalised ones: the positive row normaliser cancels.
-/
import proofs.«153195_g7000796692862_feedfinal_2_13_alg».proof.Proof.KernelBlocks
import proofs.«153195_g7000796692862_feedfinal_2_13_alg».proof.Proof.RefValue
import proofs.«153195_g7000796692862_feedfinal_2_13_alg».proof.Proof.LibBlockSplit
import proofs.«153195_g7000796692862_feedfinal_2_13_alg».proof.Proof.DtcLift
import Idealize.ShloMosaic.Lib.ValueLayout

set_option maxRecDepth 16384

noncomputable section

namespace Cert.Proof.Bridge

open Idealize.ShloMosaic Idealize.ShloMosaic.ValueIdx Cert.Proof.Dtc Cert.KernelIdeal.Blocks
open Cert.ReferenceIdeal.Read

abbrev SX : Shape := ⟨2, ![65536, 1024]⟩
abbrev SW : Shape := ⟨2, ![1024, 128]⟩
abbrev Sb : Shape := ⟨1, ![128]⟩
abbrev SB : Shape := ⟨2, ![1, 128]⟩
abbrev SC : Shape := ⟨2, ![512, 128]⟩
abbrev SL : Shape := ⟨2, ![65536, 128]⟩
abbrev SQ : Shape := ⟨2, ![65536, 512]⟩
abbrev SF : Shape := ⟨3, ![32, 1, 512]⟩

local instance : Nonempty (Fin 512) := ⟨⟨0, by norm_num⟩⟩
local instance : Nonempty (Fin 65536) := ⟨⟨0, by norm_num⟩⟩

variable (X : SX.Idx → EReal) (Wm : SW.Idx → EReal) (b : Sb.Idx → EReal) (C : SC.Idx → EReal)
  (xr : SX.Idx → ℝ) (wr : SW.Idx → ℝ) (br : Sb.Idx → ℝ) (cr : SC.Idx → ℝ)

/-- The real latent entry `(n, d)`. -/
def lRow (n : Fin 65536) (d : Fin 128) : ℝ := (∑ k : Fin 1024, xr (ix2 n k) * wr (ix2 k d)) + br (ix1 d)

/-- The real centroids by coordinates. -/
def cRow (k : Fin 512) (d : Fin 128) : ℝ := cr (ix2 k d)

/-- The bias viewed as one row reads the bias. -/
theorem bias_row (v : Sb.Idx → EReal) (hcast : Sb.ShapeCasts SB) (vr : Sb.Idx → ℝ) (hv : ∀ i, v i = (vr i : EReal))
    (d : Fin 128) : shapeCast SB v hcast (ix2 (0 : Fin 1) d) = (vr (ix1 d) : EReal) := by
  rw [shapeCast_a_1a_apply]; exact hv _

section Real

variable (hX : ∀ i, X i = (xr i : EReal)) (hW : ∀ i, Wm i = (wr i : EReal)) (hb : ∀ i, b i = (br i : EReal))
  (hC : ∀ i, C i = (cr i : EReal))
include hX hW hb hC

/-! ## The kernel's functions at real inputs -/

theorem latentFn_real (B : SB.Idx → EReal) (hB : ∀ d : Fin 128, B (ix2 (0 : Fin 1) d) = (br (ix1 d) : EReal)) (n : Fin 65536) (d : Fin 128) :
    latentFn X Wm B n d = (lRow xr wr br n d : EReal) := by
  unfold latentFn lRow
  simp only [hX, hW, hB, ← EReal.coe_mul, ← coe_sum, ← EReal.coe_add]

theorem weightFn_real (L : Fin 65536 → Fin 128 → EReal) (hL : ∀ n d, L n d = (lRow xr wr br n d : EReal)) (n : Fin 65536) (k : Fin 512) :
    weightFn L C n k = (qR (lRow xr wr br n) (cRow cr) k : EReal) := by
  unfold weightFn
  have e1 : (fun d : Fin 128 => L n d) = fun d => ((lRow xr wr br n d : ℝ) : EReal) := funext (hL n)
  have e2 : (fun (k : Fin 512) (d : Fin 128) => C (ix2 k d)) = fun k d => ((cRow cr k d : ℝ) : EReal) :=
    funext fun k => funext fun d => hC _
  rw [e1, e2]
  exact qKE_coe _ _ k

/-- The 32 slabs of partial column sums added are the column sums over all rows. -/
theorem slabs_real (Q : Fin 65536 → Fin 512 → EReal) (hQ : ∀ n k, Q n k = (qR (lRow xr wr br n) (cRow cr) k : EReal)) (k : Fin 512) :
    (∑ i : Fin 32, arr3 (slabFn Q) (ix3 i (0 : Fin 1) k)) = (fqR (lRow xr wr br) (cRow cr) k : EReal) := by
  simp only [arr3_ix3]
  unfold slabFn fqR
  simp only [hQ, ← coe_sum]
  refine congrArg _ ?_
  exact (Cert.Lib.sum_blocks 32 2048 65536 rfl (fun n => qR (lRow xr wr br n) (cRow cr) k) rowOf (fun _ _ => rfl)).symm

theorem targetFn_real (L : SL.Idx → EReal) (hL : ∀ n d, L (ix2 n d) = (lRow xr wr br n d : EReal)) (Fp : SF.Idx → EReal)
    (hF : ∀ k : Fin 512, (∑ i : Fin 32, Fp (ix3 i (0 : Fin 1) k)) = (fqR (lRow xr wr br) (cRow cr) k : EReal))
    (n : Fin 65536) (k : Fin 512) :
    targetFn L C Fp n k = (pK (lRow xr wr br n) (cRow cr) (fqR (lRow xr wr br) (cRow cr)) k : EReal) := by
  unfold targetFn
  have e1 : (fun d : Fin 128 => L (ix2 n d)) = fun d => ((lRow xr wr br n d : ℝ) : EReal) := funext (hL n)
  have e2 : (fun (k : Fin 512) (d : Fin 128) => C (ix2 k d)) = fun k d => ((cRow cr k d : ℝ) : EReal) :=
    funext fun k => funext fun d => hC _
  have e3 : (fun k : Fin 512 => ∑ i : Fin 32, Fp (ix3 i (0 : Fin 1) k)) = fun k => ((fqR (lRow xr wr br) (cRow cr) k : ℝ) : EReal) :=
    funext hF
  rw [e1, e2, e3]
  exact pKE_coe _ _ _ (fun k => fqR_pos _ _ k) k

/-! ## The reference's results at real inputs -/

theorem ref_latent (n : Fin 65536) (d : Fin 128) :
    val_main_v3 (F := Ideal) X Wm b (ix2 n d) = (lRow xr wr br n d : EReal) := by
  rw [Cert.ReferenceIdeal.RefValue.latent_apply]
  unfold lRow
  simp only [hX, hW, hb, ← EReal.coe_mul, ← coe_sum, ← EReal.coe_add]

theorem ref_num (n : Fin 65536) (k : Fin 512) :
    val_main_v23 (F := Ideal) X Wm b C (ix2 n k) = (numR (lRow xr wr br n) (cRow cr) k : EReal) := by
  rw [Cert.ReferenceIdeal.RefValue.num_apply]
  have e1 : (fun d : Fin 128 => val_main_v3 (F := Ideal) X Wm b (ix2 n d)) = fun d => ((lRow xr wr br n d : ℝ) : EReal) :=
    funext (ref_latent X Wm b C xr wr br cr hX hW hb hC n)
  have e2 : (fun (k : Fin 512) (d : Fin 128) => C (ix2 k d)) = fun k d => ((cRow cr k d : ℝ) : EReal) :=
    funext fun k => funext fun d => hC _
  rw [e1, e2]
  exact numRE_coe _ _ k

theorem ref_weights (n : Fin 65536) (k : Fin 512) :
    val_main_v27 (F := Ideal) X Wm b C (ix2 n k) = (qR (lRow xr wr br n) (cRow cr) k : EReal) := by
  rw [Cert.ReferenceIdeal.RefValue.weights_apply]
  have e1 : (fun k' : Fin 512 => val_main_v23 (F := Ideal) X Wm b C (ix2 n k')) = fun k' => ((numR (lRow xr wr br n) (cRow cr) k' : ℝ) : EReal) :=
    funext (ref_num X Wm b C xr wr br cr hX hW hb hC n)
  rw [e1]
  exact qRE_coe _ _ k

theorem ref_colsum (k : Fin 512) :
    val_main_v28 (F := Ideal) X Wm b C (ix1 k) = (fqR (lRow xr wr br) (cRow cr) k : EReal) := by
  rw [Cert.ReferenceIdeal.RefValue.colsum_apply]
  simp only [ref_weights X Wm b C xr wr br cr hX hW hb hC]
  unfold fqR
  rw [zero_word, ← coe_sum, ← EReal.coe_add, zero_add]

theorem ref_target (n : Fin 65536) (k : Fin 512) :
    val_main_v36 (F := Ideal) X Wm b C (ix2 n k)
      = (pR (lRow xr wr br n) (cRow cr) (fqR (lRow xr wr br) (cRow cr)) k : EReal) := by
  rw [Cert.ReferenceIdeal.RefValue.target_apply]
  have e1 : (fun k' : Fin 512 => val_main_v27 (F := Ideal) X Wm b C (ix2 n k')) = fun k' => ((qR (lRow xr wr br n) (cRow cr) k' : ℝ) : EReal) :=
    funext (ref_weights X Wm b C xr wr br cr hX hW hb hC n)
  have e2 : (fun k' : Fin 512 => val_main_v28 (F := Ideal) X Wm b C (ix1 k')) = fun k' => ((fqR (lRow xr wr br) (cRow cr) k' : ℝ) : EReal) :=
    funext (ref_colsum X Wm b C xr wr br cr hX hW hb hC)
  rw [e1, e2]
  exact pRE_coe _ _ _ (fun k => fqR_pos _ _ k) k

end Real

/-! ## The kernel's arrays are the reference's results -/

section Arrays

variable (hX : ∀ i, ∃ r : ℝ, X i = (r : EReal)) (hW : ∀ i, ∃ r : ℝ, Wm i = (r : EReal)) (hb : ∀ i, ∃ r : ℝ, b i = (r : EReal))
  (hC : ∀ i, ∃ r : ℝ, C i = (r : EReal)) (hcast : Sb.ShapeCasts SB)
include hX hW hb hC

theorem latent_eq : arr2 (latentFn X Wm (shapeCast SB b hcast)) = val_main_v3 (F := Ideal) X Wm b := by
  choose xr hxr using hX
  choose wr hwr using hW
  choose br hbr using hb
  choose cr hcr using hC
  funext i
  obtain ⟨n, d, rfl⟩ : ∃ (n : Fin 65536) (d : Fin 128), i = ix2 n d := ⟨i 0, i 1, eq_ix2 i⟩
  rw [arr2_ix2, latentFn_real X Wm b C xr wr br cr hxr hwr hbr hcr _ (bias_row b hcast br hbr),
    ref_latent X Wm b C xr wr br cr hxr hwr hbr hcr]

theorem weights_eq : arr2 (weightFn (latentFn X Wm (shapeCast SB b hcast)) C) = val_main_v27 (F := Ideal) X Wm b C := by
  choose xr hxr using hX
  choose wr hwr using hW
  choose br hbr using hb
  choose cr hcr using hC
  funext i
  obtain ⟨n, k, rfl⟩ : ∃ (n : Fin 65536) (k : Fin 512), i = ix2 n k := ⟨i 0, i 1, eq_ix2 i⟩
  rw [arr2_ix2, weightFn_real X Wm b C xr wr br cr hxr hwr hbr hcr _
      (latentFn_real X Wm b C xr wr br cr hxr hwr hbr hcr _ (bias_row b hcast br hbr)),
    ref_weights X Wm b C xr wr br cr hxr hwr hbr hcr]

theorem target_eq :
    arr2 (targetFn (arr2 (latentFn X Wm (shapeCast SB b hcast))) C (arr3 (slabFn (weightFn (latentFn X Wm (shapeCast SB b hcast)) C))))
      = val_main_v36 (F := Ideal) X Wm b C := by
  choose xr hxr using hX
  choose wr hwr using hW
  choose br hbr using hb
  choose cr hcr using hC
  funext i
  obtain ⟨n, k, rfl⟩ : ∃ (n : Fin 65536) (k : Fin 512), i = ix2 n k := ⟨i 0, i 1, eq_ix2 i⟩
  have hL := latentFn_real X Wm b C xr wr br cr hxr hwr hbr hcr _ (bias_row b hcast br hbr)
  have hQ := weightFn_real X Wm b C xr wr br cr hxr hwr hbr hcr _ hL
  rw [arr2_ix2, targetFn_real X Wm b C xr wr br cr hxr hwr hbr hcr _ (fun n d => hL n d) _
      (slabs_real X Wm b C xr wr br cr hxr hwr hbr hcr _ hQ),
    ref_target X Wm b C xr wr br cr hxr hwr hbr hcr, pK_eq_pR]

end Arrays

end Cert.Proof.Bridge

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibFiniteEntries.lean ====
/-
  "Every entry is finite", read back from its printed test, for an array of any shape.

  A finiteness precondition tests each entry by |a| < +∞ — the absolute value the host's max (a, -a), plus infinity the
  word 0x7F800000 repeated over the shape — and reduces the tests by `and` to one bit. When that bit is one every test is
  one; and on the extended reals |a| < +∞ says a is neither infinity, so a is a real number (`IsReal`).
-/
import proofs.«153195_g7000796692862_feedfinal_2_13_alg».proof.Proof.LibRealEdgeSums
import proofs.«153195_g7000796692862_feedfinal_2_13_alg».proof.Proof.LibBroadcastInDim
import Idealize.ShloMosaic.Lib.ReduceAll
import Idealize.ShloMosaic.Lib.ValueIdx
import Idealize.ShloMosaic.PureOps.Ideal.Laws

noncomputable section

namespace Cert.FiniteEntries

open Idealize.ShloMosaic Idealize.ShloMosaic.ValueIdx Cert.GcnAlgebra

/-- The word 0x7F800000 is plus infinity. -/
theorem inf_word : Ideal.ofBits .f32 0x7F800000#32 = ⊤ := by simp [Ideal.ofBits, Ideal.ieee]

/-- An extended real whose absolute value compares below plus infinity is a real number. -/
theorem isReal_of_lt_inf (x : EReal) (h : Ideal.cmp .olt (max x (-x)) (Ideal.ofBits .f32 0x7F800000#32) = 1#1) : IsReal x := by
  rw [inf_word] at h
  have hlt : max x (-x) < ⊤ := by
    by_contra hc
    have h0 : Ideal.cmp .olt (max x (-x)) ⊤ = 0#1 := by
      unfold Ideal.cmp
      simp [hc]
    rw [h0] at h
    exact absurd h (by decide)
  obtain ⟨h1, h2⟩ := max_lt_iff.mp hlt
  induction x using EReal.rec with
  | bot => exact absurd h2 (by simp)
  | top => exact absurd h1 (lt_irrefl _)
  | coe r => exact ⟨r, rfl⟩

instance : Subsingleton (⟨0, ![]⟩ : Shape).Idx := ⟨fun a b => funext fun d => d.elim0⟩

/-- One argument: when the all-reduction of its "absolute value below plus infinity" tests is one, every entry is real. -/
theorem all_real {S : Shape} (a : FVec Ideal S .f32) (hb : (⟨0, ![]⟩ : Shape).BroadcastsInDim S ![])
    {axes : List (Fin S.rank)} (hr : S.ReducesTo axes ⟨0, ![]⟩) (hu : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr hu ix0 = 1#1) (i : S.Idx) : IsReal (a i) := by
  have hi := Host.reduce_andi_all _ _ hr hu ix0 h i
  have hB : broadcastInDim S ![] hb (constant (F := Ideal) ⟨0, ![]⟩ .f32 0x7F800000#32) i
      = Ideal.ofBits .f32 0x7F800000#32 := Cert.BroadcastInDim.scalar_apply _ hb i
  have hi' : Ideal.cmp .olt (max (a i) (-(a i)))
      (broadcastInDim S ![] hb (constant (F := Ideal) ⟨0, ![]⟩ .f32 0x7F800000#32) i) = 1#1 := hi
  rw [hB] at hi'
  exact isReal_of_lt_inf _ hi'

end Cert.FiniteEntries

end
-- ==== Proof.FiniteInputs.lean ====
/-
  The finiteness precondition, read back: when the printed test of the four argument arrays returns one, every entry
  of each array is a real number.

  The test is the conjunction of four bits, one per array. Each bit is the reduction by `and`, over the whole array, of
  the entrywise comparison |a| < +∞: the absolute value against the word 0x7F800000 repeated over the array's shape. A
  conjunction of bits is one only when each of them is one; a reduction by `and` is one only when every entry's
  comparison is one; and an extended real whose absolute value lies below plus infinity is neither infinity, so it is a
  real number.
-/
import proofs.«153195_g7000796692862_feedfinal_2_13_alg».proof.Pre_finite_inputs
import proofs.«153195_g7000796692862_feedfinal_2_13_alg».proof.Proof.LibFiniteEntries
import Idealize.ShloMosaic.Lib.ReduceAll
import Idealize.ShloMosaic.Lib.ValueIdx
import Idealize.ShloMosaic.Lib.Affine

noncomputable section

namespace Cert.Proof.FiniteInputs

open Idealize.ShloMosaic Idealize.ShloMosaic.ValueIdx Cert.Pre_finite_inputs

/-- Under the precondition every entry of each argument array is a finite real: when the printed test of the four
    arrays `x`, `W`, `b`, `centroids` is one, each entry of each of them is the coercion of a real number. -/
theorem real_of_finite [Cert.Pre_finite_inputs.Facts]
    (a0 : FVec Ideal S65536x1024 .f32) (a1 : FVec Ideal S1024x128 .f32)
    (a2 : FVec Ideal S128 .f32) (a3 : FVec Ideal S512x128 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have hz := congrFun h ix0
  dsimp only [Cert.Pre_finite_inputs.fn, Cert.Pre_finite_inputs.fn_part1, Idealize.ShloMosaic.andi] at hz
  -- the conjunction of the four bits, split from the outside in
  obtain ⟨h012, h3⟩ := IntOp.andi_eq_one.1 hz
  obtain ⟨h01, h2⟩ := IntOp.andi_eq_one.1 h012
  obtain ⟨h0, h1⟩ := IntOp.andi_eq_one.1 h01
  exact ⟨fun i => Cert.FiniteEntries.all_real a0 _ _ _ h0 i, fun i => Cert.FiniteEntries.all_real a1 _ _ _ h1 i,
    fun i => Cert.FiniteEntries.all_real a2 _ _ _ h2 i, fun i => Cert.FiniteEntries.all_real a3 _ _ _ h3 i⟩

end Cert.Proof.FiniteInputs

end
-- ==== Proof.lean ====
/-
  The certificate of the deep-clustering kernel against its reference.
  The kernel is two passes over 65536 rows. The first, in 32 blocks of 2048 rows, computes the latent rows
  `l = x · W + b`, the Student-t weights `1 / (1 + ‖l − c‖²)` against the 512 centroids (the distance expanded as
  `‖l‖² + ‖c‖² − 2 l·c`), their row normalisation `Q`, and each block's column sums of `Q`. The second, in 16 blocks of
  4096 rows, recomputes the weights from `l`, adds the 32 slabs of partial sums into the column sums `F`, and stores
  `(w² / F)` divided by its row sum. The reference computes `l`, `Q = w / rowsum w` with `w = (1 + D / 1)^(-1)`,
  `F = colsum Q` and `(Q² / F)` divided by its row sum.
  At the ideal instance both are functions on the extended reals. Under the precondition every input entry is a real,
  so every intermediate is a real and the weights are positive: the power `-1` of a base at least `1` is the reciprocal,
  every divisor is a nonzero real, the block-wise column sums regroup into the whole column sums, and the positive row
  normaliser of `Q` cancels between the numerator and the row sum of the target. The latent array needs none of this:
  both sides are the same sums.
  The frames of the two kernel programs are the generated ones; the reference's frame is its generated run with the
  results dropped; no operation was rewritten by the idealization.
-/
import proofs.«153195_g7000796692862_feedfinal_2_13_alg».proof.Defs
import proofs.«153195_g7000796692862_feedfinal_2_13_alg».proof.Proof.Gen.Kernel
import proofs.«153195_g7000796692862_feedfinal_2_13_alg».proof.Proof.Gen.Kernel.Skeleton
import proofs.«153195_g7000796692862_feedfinal_2_13_alg».proof.Proof.Gen.Kernel.Launch
import proofs.«153195_g7000796692862_feedfinal_2_13_alg».proof.Proof.Gen.Kernel.Points
import proofs.«153195_g7000796692862_feedfinal_2_13_alg».proof.Proof.Gen.Kernel.Frame
import proofs.«153195_g7000796692862_feedfinal_2_13_alg».proof.Proof.Gen.KernelIdeal
import proofs.«153195_g7000796692862_feedfinal_2_13_alg».proof.Proof.Gen.KernelIdeal.Skeleton
import proofs.«153195_g7000796692862_feedfinal_2_13_alg».proof.Proof.Gen.KernelIdeal.Launch
import proofs.«153195_g7000796692862_feedfinal_2_13_alg».proof.Proof.Gen.KernelIdeal.Points
import proofs.«153195_g7000796692862_feedfinal_2_13_alg».proof.Proof.Gen.KernelIdeal.Frame
import proofs.«153195_g7000796692862_feedfinal_2_13_alg».proof.Proof.Gen.ReferenceIdeal
import proofs.«153195_g7000796692862_feedfinal_2_13_alg».proof.Proof.Gen.Pre_finite_inputs
import proofs.«153195_g7000796692862_feedfinal_2_13_alg».proof.Proof.Gen.ReferenceIdeal.Run
import proofs.«153195_g7000796692862_feedfinal_2_13_alg».proof.Proof.Gen.ReferenceIdeal.Read
import proofs.«153195_g7000796692862_feedfinal_2_13_alg».proof.Proof.KernelRun
import proofs.«153195_g7000796692862_feedfinal_2_13_alg».proof.Proof.KernelBlocks
import proofs.«153195_g7000796692862_feedfinal_2_13_alg».proof.Proof.Bridge
import proofs.«153195_g7000796692862_feedfinal_2_13_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KRun Cert.KernelIdeal.Blocks

/-- The idealized kernel's run with its three result arrays at the reference's stages of the kernel's own arguments:
    the arrays are read off the run, block by block, as whole-array functions, and under the precondition (every input
    entry a real) those functions are the reference's. -/
theorem kernel_values (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1_0) = Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v1_1) = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v2) = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ?_) (run_named (F := Ideal) m ρ)
  obtain ⟨hX, hW, hb, hC⟩ := Cert.Proof.FiniteInputs.real_of_finite _ _ _ _ (hpre c)
  obtain ⟨h0, h1, h2, ha0, ha1, ha2, ha3⟩ := h c
  refine ⟨?_, ?_, ?_, ha0, ha1, ha2, ha3⟩
  · rw [h0, W3_latent, final_latent, V1_arg0, V1_arg1, V1_bias]
    exact Cert.Proof.Bridge.latent_eq _ _ _ _ hX hW hb hC _
  · rw [h1, W3_weights, final_weights, V1_arg0, V1_arg1, V1_bias, V1_arg3]
    exact Cert.Proof.Bridge.weights_eq _ _ _ _ hX hW hb hC _
  · rw [h2, W3_target, final_target, V2_latent, V2_arg3, V2_partials, final_latent, final_partials,
      V1_arg0, V1_arg1, V1_bias, V1_arg3]
    exact Cert.Proof.Bridge.target_eq _ _ _ _ hX hW hb hC _

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both idealized programs end with their results at the reference's stages of the (agreeing) arguments. -/
theorem algebraic : Cert.algebraic_KernelIdeal_ReferenceIdeal := by
  intro m ρ m' ρ' hpre hagree
  refine ⟨_, _, _, kernel_values m ρ hpre, ?_⟩
  refine (θ_run Cert.ReferenceIdeal.defs _ _).mono (fun _ h c => ?_) (Cert.ReferenceIdeal.Value.run (F := Ideal) m' ρ')
  obtain ⟨h0, h1, h2, rest⟩ := h c
  obtain ⟨e0, e1, e2, e3⟩ := hagree c
  refine ⟨h0.trans ?_, h1.trans ?_, h2.trans ?_, rest⟩
  · rw [e0, e1, e2]; rfl
  · rw [Cert.ReferenceIdeal.Read.val_main_v27_eq, e0, e1, e2, e3]
  · rw [Cert.ReferenceIdeal.Read.val_main_v36_eq, e0, e1, e2, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
